-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x512 : Shape := ⟨2, ![8192, 512]⟩
abbrev S512x256 : Shape := ⟨2, ![512, 256]⟩
abbrev S256x64 : Shape := ⟨2, ![256, 64]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x256 : S_.BroadcastsInDim S512x256 (![] : Fin 0 → Fin S512x256.rank)
  reducesTo_S512x256_S_d0_1 : S512x256.ReducesTo [0, 1] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  main_v18

def fn {F : FTy → Type} [FloatOps F] (main_arg0 : FVec F S8192x8192 .f32) (main_arg1 : FVec F S8192x512 .f32) (main_arg2 : FVec F S512x256 .f32) (main_arg3 : FVec F S256x64 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_v13 main_v16
-- ==== Kernel.lean ====
abbrev S8192x8192 : Shape := ⟨2, ![8192, 8192]⟩
abbrev S8192x512 : Shape := ⟨2, ![8192, 512]⟩
abbrev S512x256 : Shape := ⟨2, ![512, 256]⟩
abbrev S256x64 : Shape := ⟨2, ![256, 64]⟩
abbrev S8192x256 : Shape := ⟨2, ![8192, 256]⟩
abbrev S1024x2048 : Shape := ⟨2, ![1024, 2048]⟩
abbrev S1024x256 : Shape := ⟨2, ![1024, 256]⟩
abbrev S2048x256 : Shape := ⟨2, ![2048, 256]⟩
abbrev S8192x64 : Shape := ⟨2, ![8192, 64]⟩
abbrev S1024x64 : Shape := ⟨2, ![1024, 64]⟩
abbrev S2048x64 : Shape := ⟨2, ![2048, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S64x8192 : Shape := ⟨2, ![64, 8192]⟩
abbrev S128x64 : Shape := ⟨2, ![128, 64]⟩
abbrev S128x1 : Shape := ⟨2, ![128, 1]⟩
abbrev S128x8192 : Shape := ⟨2, ![128, 8192]⟩
abbrev S128 : Shape := ⟨1, ![128]⟩

abbrev nBuf : Space → Nat
  | .hbm => 17
  | .vmem => 20
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S512x256, .f32⟩
  | .hbm, ⟨3, _⟩ => ⟨S256x64, .f32⟩
  | .hbm, ⟨4, _⟩ => ⟨S8192x256, .f32⟩
  | .hbm, ⟨5, _⟩ => ⟨S8192x256, .bf16⟩
  | .hbm, ⟨6, _⟩ => ⟨S8192x256, .f32⟩
  | .hbm, ⟨7, _⟩ => ⟨S8192x64, .f32⟩
  | .hbm, ⟨8, _⟩ => ⟨S8192x64, .bf16⟩
  | .hbm, ⟨9, _⟩ => ⟨S8192x64, .f32⟩
  | .hbm, ⟨10, _⟩ => ⟨S8192x64, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S1x8192, .f32⟩
  | .hbm, ⟨15, _⟩ => ⟨S64x8192, .f32⟩
  | .hbm, ⟨16, _⟩ => ⟨S8192x8192, .f32⟩
  | .local _ .vmem, ⟨0, _⟩ => ⟨S1024x2048, .f32⟩
  | .local _ .vmem, ⟨1, _⟩ => ⟨S1024x2048, .f32⟩
  | .local _ .vmem, ⟨2, _⟩ => ⟨S8192x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x2048, .f32⟩
  | .local _ .vmem, ⟨7, _⟩ => ⟨S1024x2048, .f32⟩
  | .local _ .vmem, ⟨8, _⟩ => ⟨S8192x64, .bf16⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S128x64, .f32⟩
  | .local _ .vmem, ⟨13, _⟩ => ⟨S128x64, .f32⟩
  | .local _ .vmem, ⟨14, _⟩ => ⟨S64x8192, .f32⟩
  | .local _ .vmem, ⟨15, _⟩ => ⟨S128x1, .f32⟩
  | .local _ .vmem, ⟨16, _⟩ => ⟨S128x1, .f32⟩
  | .local _ .vmem, ⟨17, _⟩ => ⟨S1x8192, .f32⟩
  | .local _ .vmem, ⟨18, _⟩ => ⟨S128x8192, .f32⟩
  | .local _ .vmem, ⟨19, _⟩ => ⟨S128x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x8192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x8192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S128x8192 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  h_S2048x256 : 0 < S2048x256.numel
  shapeCasts_S2048x256_S2048x256 : S2048x256.ShapeCasts S2048x256
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  h_S2048x64 : 0 < S2048x64.numel
  shapeCasts_S2048x64_S2048x64 : S2048x64.ShapeCasts S2048x64
  reducesTo_S8192x64_S8192_d1 : S8192x64.ReducesTo [1] S8192
  h_S_ : 0 < S_.numel
  shapeCasts_S8192_S8192x1 : S8192.ShapeCasts S8192x1
  shapeCasts_S8192_S1x8192 : S8192.ShapeCasts S1x8192
  transposes_S8192x64_S64x8192_1_0 : S8192x64.Transposes [1, 0] S64x8192
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  inb_S128x8192_S128x8192_0_0 : ∀ a, (![0, 0] : Fin 2 → Nat) a + S128x8192.size a ≤ S128x8192.size a
  h_S128x8192 : 0 < S128x8192.numel
  dot_S8192x512_S512x256_S8192x256_1_0_0_1_n_n_wf : DotDims.WF S8192x512 S512x256 S8192x256 [1] [0] [0] [1] [] []
  dot_S1024x2048_S2048x256_S1024x256_1_0_0_1_n_n_wf : DotDims.WF S1024x2048 S2048x256 S1024x256 [1] [0] [0] [1] [] []
  dot_S8192x256_S256x64_S8192x64_1_0_0_1_n_n_wf : DotDims.WF S8192x256 S256x64 S8192x64 [1] [0] [0] [1] [] []
  dot_S1024x2048_S2048x64_S1024x64_1_0_0_1_n_n_wf : DotDims.WF S1024x2048 S2048x64 S1024x64 [1] [0] [0] [1] [] []
  dot_S128x64_S64x8192_S128x8192_1_0_0_1_n_n_wf : DotDims.WF S128x64 S64x8192 S128x8192 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x64.size a ≤ S8192x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .bf16 = 32 ∨ (Rect.block (s := S8192x64) S8192x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S8192x64.size a
  hwx1_2 : ∀ i : grid1.Coords, EltTy.bits .f32 = 32 ∨ (Rect.block (s := S8192x64) S1024x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x64.size a ≤ S8192x64.size a
  hwx2_0 : ∀ i : grid2.Coords, EltTy.bits .f32 = 32 ∨ (Rect.block (s := S8192x64) S128x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x8192.size a ≤ S64x8192.size a
  hwx2_1 : ∀ i : grid2.Coords, EltTy.bits .f32 = 32 ∨ (Rect.block (s := S64x8192) S64x8192.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S8192x1.size a
  hwx2_2 : ∀ i : grid2.Coords, EltTy.bits .f32 = 32 ∨ (Rect.block (s := S8192x1) S128x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x8192.size a ≤ S1x8192.size a
  hwx2_3 : ∀ i : grid2.Coords, EltTy.bits .f32 = 32 ∨ (Rect.block (s := S1x8192) S1x8192.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S128x8192.size a ≤ S8192x8192.size a
  hwx2_4 : ∀ i : grid2.Coords, EltTy.bits .f32 = 32 ∨ (Rect.block (s := S8192x8192) S128x8192.size (cc2_transform_4 i) (hinb2_4 i)).WholeWords (EltTy.packing .f32)

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S128x64_S64x8192_S128x8192_1_0_0_1_n_n : DotDims S128x64 S64x8192 S128x8192 where
  lhsContracting := [1]
  rhsContracting := [0]
  lhsNonContracting := [0]
  rhsNonContracting := [1]
  lhsBatch := []
  rhsBatch := []
  wf := dot_S128x64_S64x8192_S128x8192_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v5) S128x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S64x8192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S128x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x8192.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S128x8192.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x8192 : Shape := ⟨2, ![8192, 8192]⟩
abbrev S8192x512 : Shape := ⟨2, ![8192, 512]⟩
abbrev S512x256 : Shape := ⟨2, ![512, 256]⟩
abbrev S256x64 : Shape := ⟨2, ![256, 64]⟩
abbrev S8192x256 : Shape := ⟨2, ![8192, 256]⟩
abbrev S_ : Shape := ⟨0, ![]⟩
abbrev S8192x64 : Shape := ⟨2, ![8192, 64]⟩
abbrev S8192 : Shape := ⟨1, ![8192]⟩
abbrev S8192x1 : Shape := ⟨2, ![8192, 1]⟩
abbrev S1x8192 : Shape := ⟨2, ![1, 8192]⟩
abbrev S64x8192 : Shape := ⟨2, ![64, 8192]⟩

abbrev nBuf : Space → Nat
  | .hbm => 46
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S512x256, .f32⟩
  | .hbm, ⟨3, _⟩ => ⟨S256x64, .f32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S8192x256, .f32⟩
  | .hbm, ⟨8, _⟩ => ⟨S8192x256, .f32⟩
  | .hbm, ⟨9, _⟩ => ⟨S8192x64, .f32⟩
  | .hbm, ⟨10, _⟩ => ⟨S8192x64, .f32⟩
  | .hbm, ⟨11, _⟩ => ⟨S8192x64, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S64x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call1_cst : Ref sig .tc := ⟨.hbm, 25, rfl⟩
abbrev main_call1_v0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x64_S8192x64_1_0_0_1_n_n_wf : DotDims.WF S8192x256 S256x64 S8192x64 [1] [0] [0] [1] [] []
  dot_S8192x8192_S8192x64_S8192x64_1_0_0_1_n_n_wf : DotDims.WF S8192x8192 S8192x64 S8192x64 [1] [0] [0] [1] [] []
  dot_S8192x64_S64x8192_S8192x8192_1_0_0_1_n_n_wf : DotDims.WF S8192x64 S64x8192 S8192x8192 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KFrBase0.lean ====
/-
  Region 0 (the first blocked matrix product): what its three whole-body runs share.
  The grid is 8 row tiles by 4 contraction steps, a point t = 4·i + k. The body clears the accumulator when k = 0,
  adds the step's partial product, and when k = 3 copies the accumulator, clamped at zero, into the output block.
  So a point is in one of three cases: k = 0 (clear and add), k = 1, 2 (add), k = 3 (add and write the block).
-/
import proofs.«111755_j39453569581320_2_alg».proof.Proof.Gen.Kernel.Launch
import proofs.«111755_j39453569581320_2_alg».proof.Proof.Gen.Kernel.Skeleton
import proofs.«111755_j39453569581320_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-! ## The two branch conditions, decided over the grid -/

/-- The first `if`: the contraction step is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second `if`: the contraction step is the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1024x256 .f32 := (Memref.whole cc0_stg2_0 : Memref sig .tc .vmem S1024x256 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0_0 : Memref sig .tc .vmem S1024x256 .f32 := Memref.whole cc0_scratch0
abbrev VS0_0 : View sig .tc .vmem S1024x256 .f32 := scM0_0.view

/-- The region's scoped rest split at the accumulator. -/
theorem scopedRest0_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f)
          ∗ Pipeline.scopedRestBut (Ix := Ix) (Name := Name) (U := U) (Lvl := Lvl) (Val := Val) spec0 c [cc0_scratch0]) :=
  Pipeline.scopedRest_split_of_list spec0 c [cc0_scratch0] (by decide) (by decide)

/-- Every other scoped buffer of the core, unopened. -/
abbrev others0 (c : Dev nD) : sProp 𝕄 :=
  Pipeline.scopedRestBut (Ix := Unit) (Name := ℕ) (U := UR sig nD τ) (Lvl := ℕ) (Val := Elt F) spec0 c [cc0_scratch0]

/-- The class invariant with the accumulator as a memref owned at some contents. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA; rw [scopedRest0_split]; simp only [scM0_0, owns_whole]; try rfl

end Cert.Kernel.Fr

end
-- ==== Proof.KFrRun0A.lean ====
/-
  Region 0, the first contraction step: the accumulator is cleared, then the step's partial product is added; the output block is left untouched.
  The whole body run once on whole staging memrefs; the pieces each buffer ends with are what the run finds.
-/
import proofs.«111755_j39453569581320_2_alg».proof.Proof.KFrBase0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : cond0_0 i) (hc1 : ¬cond0_1 i)
    (x0 : Vec F S1024x2048 .f32) (x1 : Vec F S8192x256 .bf16) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mm_kernel i arg2 harg2 arg3 harg3 arg4 harg4 arg5 harg5) K } := by
  refine ⟨[], ?_, fun xi2 E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.KFrRun0B.lean ====
/-
  Region 0, a middle contraction step: the step's partial product is added to the accumulator; the output block is left untouched.
  The whole body run once on whole staging memrefs; the pieces each buffer ends with are what the run finds.
-/
import proofs.«111755_j39453569581320_2_alg».proof.Proof.KFrBase0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : ¬cond0_1 i)
    (x0 : Vec F S1024x2048 .f32) (x1 : Vec F S8192x256 .bf16) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mm_kernel i arg2 harg2 arg3 harg3 arg4 harg4 arg5 harg5) K } := by
  refine ⟨[], ?_, fun xi2 E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.KFrRun0C.lean ====
/-
  Region 0, the last contraction step: the step's partial product is added to the accumulator, which is then written, clamped at zero, into the output block.
  The whole body run once on whole staging memrefs; the pieces each buffer ends with are what the run finds.
-/
import proofs.«111755_j39453569581320_2_alg».proof.Proof.KFrBase0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S8192x256 .bf16) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__mm_kernel i arg2 harg2 arg3 harg3 arg4 harg4 arg5 harg5) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.KFrRegion0.lean ====
/-
  Region 0 (the first blocked matrix product): what the accumulator and the output block hold after each grid point,
  the pipeline's proof data over them, and the body obligation.
  After point t = 4·i + k the accumulator holds the sum of the first k + 1 partial products of row tile i; the output
  block is written at k = 3 only. The region's invariant carries the accumulator at exactly these contents from one
  point to the next; every other scoped buffer of the core rides along unopened.
-/
import proofs.«111755_j39453569581320_2_alg».proof.Proof.KFrRun0A
import proofs.«111755_j39453569581320_2_alg».proof.Proof.KFrRun0B
import proofs.«111755_j39453569581320_2_alg».proof.Proof.KFrRun0C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output block's staging buffer (nothing is stored: a placeholder no one reads). -/
def out0_A_2 (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : cond0_0 i) (hc1 : ¬cond0_1 i)
    (x0 : Vec F S1024x2048 .f32) (x1 : Vec F S8192x256 .bf16) : Vec F S1024x256 .f32 :=
  VO0_2.read (Elt F) (VO0_2.writes (Elt F) VO0_2.junk (kernelRun0_A c i arg2 harg2 arg3 harg3 arg4 harg4 arg5 harg5 hc0 hc1 x0 x1).1)

/-- Case A's stores cover the accumulator. -/
theorem scover0_A_0 (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : cond0_0 i) (hc1 : ¬cond0_1 i)
    (x0 : Vec F S1024x2048 .f32) (x1 : Vec F S8192x256 .bf16) (y : S1024x256.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x256.size (by sl_kernel_rfl) y

/-- What case A leaves in the accumulator. -/
def sout0_A_0 (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : cond0_0 i) (hc1 : ¬cond0_1 i)
    (x0 : Vec F S1024x2048 .f32) (x1 : Vec F S8192x256 .bf16) : Vec F S1024x256 .f32 :=
  VS0_0.read (Elt F) (VS0_0.writes (Elt F) VS0_0.junk (kernelRun0_A c i arg2 harg2 arg3 harg3 arg4 harg4 arg5 harg5 hc0 hc1 x0 x1).2.1)

/-- What case B leaves in the output block's staging buffer (nothing is stored: a placeholder no one reads). -/
def out0_B_2 (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : ¬cond0_1 i)
    (x0 : Vec F S1024x2048 .f32) (x1 : Vec F S8192x256 .bf16) (xs0 : Vec F S1024x256 .f32) : Vec F S1024x256 .f32 :=
  VO0_2.read (Elt F) (VO0_2.writes (Elt F) VO0_2.junk (kernelRun0_B c i arg2 harg2 arg3 harg3 arg4 harg4 arg5 harg5 hc0 hc1 x0 x1 xs0).1)

/-- Case B's stores cover the accumulator. -/
theorem scover0_B_0 (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : ¬cond0_1 i)
    (x0 : Vec F S1024x2048 .f32) (x1 : Vec F S8192x256 .bf16) (xs0 : Vec F S1024x256 .f32) (y : S1024x256.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x256.size (by sl_kernel_rfl) y

/-- What case B leaves in the accumulator. -/
def sout0_B_0 (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : ¬cond0_1 i)
    (x0 : Vec F S1024x2048 .f32) (x1 : Vec F S8192x256 .bf16) (xs0 : Vec F S1024x256 .f32) : Vec F S1024x256 .f32 :=
  VS0_0.read (Elt F) (VS0_0.writes (Elt F) VS0_0.junk (kernelRun0_B c i arg2 harg2 arg3 harg3 arg4 harg4 arg5 harg5 hc0 hc1 x0 x1 xs0).2.1)

/-- What case C leaves in the output block's staging buffer. -/
def out0_C_2 (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S8192x256 .bf16) (xs0 : Vec F S1024x256 .f32) : Vec F S1024x256 .f32 :=
  VO0_2.read (Elt F) (VO0_2.writes (Elt F) VO0_2.junk (kernelRun0_C c i arg2 harg2 arg3 harg3 arg4 harg4 arg5 harg5 hc0 hc1 x0 x1 xs0).1)

/-- Case C's store covers the output block. -/
theorem cover0_C_2 (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S8192x256 .bf16) (xs0 : Vec F S1024x256 .f32) (y : S1024x256.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x256.size (by sl_kernel_rfl) y

/-- Case C's stores cover the accumulator. -/
theorem scover0_C_0 (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S8192x256 .bf16) (xs0 : Vec F S1024x256 .f32) (y : S1024x256.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x256.size (by sl_kernel_rfl) y

/-- What case C leaves in the accumulator. -/
def sout0_C_0 (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S8192x256 .bf16) (xs0 : Vec F S1024x256 .f32) : Vec F S1024x256 .f32 :=
  VS0_0.read (Elt F) (VS0_0.writes (Elt F) VS0_0.junk (kernelRun0_C c i arg2 harg2 arg3 harg3 arg4 harg4 arg5 harg5 hc0 hc1 x0 x1 xs0).2.1)

section
variable (V : (c : Dev nD) → (b : Ref sig .tc) → Buf (Elt F) ((c : Thread nD τ).loc b))

/-! ## What the output block's buffer and the accumulator hold after each point -/

/-- After the body at position `n`: the case the point is in, run on the point's blocks and on what the point before
    left in the accumulator. -/
def outsAt0 (c : Dev nD) : (n : ℕ) → n < cfg0.N → Vec F S1024x256 .f32 × Vec F S1024x256 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer at anything);
    afterwards the accumulator at what the point before left in it, every other scoped buffer at anything, and the
    generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the case the point is in is run on the input blocks and on the accumulator as the point before
    left it, and the accumulator is handed on at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ )
            iexact Hoth
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ )
            iexact Hoth
          iexact Hg
        isplitl [Ho]; · iexact Ho
        isplitl [H0]; · iexact H0
        isplitl [H1]; · iexact H1
        iexists _; iexact H2
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _ _ _ _ )
            iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ )
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _ _ _ _ )
            iexact Hoth
          iexact Hg
        isplitl [Ho]; · iexact Ho
        isplitl [H0]; · iexact H0
        isplitl [H1]; · iexact H1
        iexists _; iexact H2

theorem body_obligation0 (c : Dev nD) : BodyObligation (dat0 (F := F) V c) (defs₀ (F := F)) Variants.none () Set.univ := fun t => by
  rw [bigSep_W0, bigSep_W0]
  exact sound_body0 V c t

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

theorem PhiLast0 (c : Dev nD) : (dat0 V c).Φ (Fin.last cfg0.N) ⊢ Pipeline.ΦA spec0 c :=
  Phi_out0 V c _ (by rw [Fin.val_last]; have : cfg0.N = 32 := N_0; omega)

end

end Cert.Kernel.Fr

end
-- ==== Proof.KFrBase1.lean ====
/-
  Region 1 (the second blocked matrix product): what its three whole-body runs share.
  The grid is 8 row tiles by 4 contraction steps, a point t = 4·i + k. The body clears the accumulator when k = 0,
  adds the step's partial product, and when k = 3 copies the accumulator into the output block.
  So a point is in one of three cases: k = 0 (clear and add), k = 1, 2 (add), k = 3 (add and write the block).
-/
import proofs.«111755_j39453569581320_2_alg».proof.Proof.Gen.Kernel.Launch
import proofs.«111755_j39453569581320_2_alg».proof.Proof.Gen.Kernel.Skeleton
import proofs.«111755_j39453569581320_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-! ## The two branch conditions, decided over the grid -/

/-- The first `if`: the contraction step is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second `if`: the contraction step is the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S1024x64 .f32 := (Memref.whole cc1_stg2_0 : Memref sig .tc .vmem S1024x64 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .f32 := win1_2.stage (cfg1.slots t 2)
abbrev hs1_2 (t : Fin cfg1.N) : (ms1_2 t).IsWhole := hstage1_2 ((cfg1.slots t 2).cast nbuf1_2)
/-- The accumulator: a whole scoped buffer of the kernel's own, carried from point to point. -/
abbrev scM1_0 : Memref sig .tc .vmem S1024x64 .f32 := Memref.whole cc1_scratch0
abbrev VS1_0 : View sig .tc .vmem S1024x64 .f32 := scM1_0.view

/-- The region's scoped rest split at the accumulator. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc1_scratch0), ((c : Thread nD τ).loc cc1_scratch0) ↦{fullShare} f)
          ∗ Pipeline.scopedRestBut (Ix := Ix) (Name := Name) (U := U) (Lvl := Lvl) (Val := Val) spec1 c [cc1_scratch0]) :=
  Pipeline.scopedRest_split_of_list spec1 c [cc1_scratch0] (by decide) (by decide)

/-- Every other scoped buffer of the core, unopened. -/
abbrev others1 (c : Dev nD) : sProp 𝕄 :=
  Pipeline.scopedRestBut (Ix := Unit) (Name := ℕ) (U := UR sig nD τ) (Lvl := ℕ) (Val := Elt F) spec1 c [cc1_scratch0]

/-- The class invariant with the accumulator as a memref owned at some contents. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA; rw [scopedRest1_split]; simp only [scM1_0, owns_whole]; try rfl

end Cert.Kernel.Fr

end
-- ==== Proof.KFrRun1A.lean ====
/-
  Region 1, the first contraction step: the accumulator is cleared, then the step's partial product is added; the output block is left untouched.
  The whole body run once on whole staging memrefs; the pieces each buffer ends with are what the run finds.
-/
import proofs.«111755_j39453569581320_2_alg».proof.Proof.KFrBase1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : cond1_0 i) (hc1 : ¬cond1_1 i)
    (x0 : Vec F S1024x2048 .f32) (x1 : Vec F S8192x64 .bf16) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨[], ?_, fun xi2 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.KFrRun1B.lean ====
/-
  Region 1, a middle contraction step: the step's partial product is added to the accumulator; the output block is left untouched.
  The whole body run once on whole staging memrefs; the pieces each buffer ends with are what the run finds.
-/
import proofs.«111755_j39453569581320_2_alg».proof.Proof.KFrBase1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : ¬cond1_1 i)
    (x0 : Vec F S1024x2048 .f32) (x1 : Vec F S8192x64 .bf16) (xs0 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨[], ?_, fun xi2 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.KFrRun1C.lean ====
/-
  Region 1, the last contraction step: the step's partial product is added to the accumulator, which is then written into the output block.
  The whole body run once on whole staging memrefs; the pieces each buffer ends with are what the run finds.
-/
import proofs.«111755_j39453569581320_2_alg».proof.Proof.KFrBase1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S8192x64 .bf16) (xs0 : Vec F S1024x64 .f32) :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.KFrRegion1.lean ====
/-
  Region 1 (the second blocked matrix product): what the accumulator and the output block hold after each grid point,
  the pipeline's proof data over them, and the body obligation.
  After point t = 4·i + k the accumulator holds the sum of the first k + 1 partial products of row tile i; the output
  block is written at k = 3 only. The region's invariant carries the accumulator at exactly these contents from one
  point to the next; every other scoped buffer of the core rides along unopened.
-/
import proofs.«111755_j39453569581320_2_alg».proof.Proof.KFrRun1A
import proofs.«111755_j39453569581320_2_alg».proof.Proof.KFrRun1B
import proofs.«111755_j39453569581320_2_alg».proof.Proof.KFrRun1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output block's staging buffer (nothing is stored: a placeholder no one reads). -/
def out1_A_2 (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : cond1_0 i) (hc1 : ¬cond1_1 i)
    (x0 : Vec F S1024x2048 .f32) (x1 : Vec F S8192x64 .bf16) : Vec F S1024x64 .f32 :=
  VO1_2.read (Elt F) (VO1_2.writes (Elt F) VO1_2.junk (kernelRun1_A c i arg2 harg2 arg3 harg3 arg4 harg4 arg5 harg5 hc0 hc1 x0 x1).1)

/-- Case A's stores cover the accumulator. -/
theorem scover1_A_0 (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : cond1_0 i) (hc1 : ¬cond1_1 i)
    (x0 : Vec F S1024x2048 .f32) (x1 : Vec F S8192x64 .bf16) (y : S1024x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x64.size (by sl_kernel_rfl) y

/-- What case A leaves in the accumulator. -/
def sout1_A_0 (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : cond1_0 i) (hc1 : ¬cond1_1 i)
    (x0 : Vec F S1024x2048 .f32) (x1 : Vec F S8192x64 .bf16) : Vec F S1024x64 .f32 :=
  VS1_0.read (Elt F) (VS1_0.writes (Elt F) VS1_0.junk (kernelRun1_A c i arg2 harg2 arg3 harg3 arg4 harg4 arg5 harg5 hc0 hc1 x0 x1).2.1)

/-- What case B leaves in the output block's staging buffer (nothing is stored: a placeholder no one reads). -/
def out1_B_2 (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : ¬cond1_1 i)
    (x0 : Vec F S1024x2048 .f32) (x1 : Vec F S8192x64 .bf16) (xs0 : Vec F S1024x64 .f32) : Vec F S1024x64 .f32 :=
  VO1_2.read (Elt F) (VO1_2.writes (Elt F) VO1_2.junk (kernelRun1_B c i arg2 harg2 arg3 harg3 arg4 harg4 arg5 harg5 hc0 hc1 x0 x1 xs0).1)

/-- Case B's stores cover the accumulator. -/
theorem scover1_B_0 (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : ¬cond1_1 i)
    (x0 : Vec F S1024x2048 .f32) (x1 : Vec F S8192x64 .bf16) (xs0 : Vec F S1024x64 .f32) (y : S1024x64.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x64.size (by sl_kernel_rfl) y

/-- What case B leaves in the accumulator. -/
def sout1_B_0 (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : ¬cond1_1 i)
    (x0 : Vec F S1024x2048 .f32) (x1 : Vec F S8192x64 .bf16) (xs0 : Vec F S1024x64 .f32) : Vec F S1024x64 .f32 :=
  VS1_0.read (Elt F) (VS1_0.writes (Elt F) VS1_0.junk (kernelRun1_B c i arg2 harg2 arg3 harg3 arg4 harg4 arg5 harg5 hc0 hc1 x0 x1 xs0).2.1)

/-- What case C leaves in the output block's staging buffer. -/
def out1_C_2 (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S8192x64 .bf16) (xs0 : Vec F S1024x64 .f32) : Vec F S1024x64 .f32 :=
  VO1_2.read (Elt F) (VO1_2.writes (Elt F) VO1_2.junk (kernelRun1_C c i arg2 harg2 arg3 harg3 arg4 harg4 arg5 harg5 hc0 hc1 x0 x1 xs0).1)

/-- Case C's store covers the output block. -/
theorem cover1_C_2 (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S8192x64 .bf16) (xs0 : Vec F S1024x64 .f32) (y : S1024x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x64.size (by sl_kernel_rfl) y

/-- Case C's stores cover the accumulator. -/
theorem scover1_C_0 (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S8192x64 .bf16) (xs0 : Vec F S1024x64 .f32) (y : S1024x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x64.size (by sl_kernel_rfl) y

/-- What case C leaves in the accumulator. -/
def sout1_C_0 (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S8192x64 .bf16) (xs0 : Vec F S1024x64 .f32) : Vec F S1024x64 .f32 :=
  VS1_0.read (Elt F) (VS1_0.writes (Elt F) VS1_0.junk (kernelRun1_C c i arg2 harg2 arg3 harg3 arg4 harg4 arg5 harg5 hc0 hc1 x0 x1 xs0).2.1)

section
variable (V : (c : Dev nD) → (b : Ref sig .tc) → Buf (Elt F) ((c : Thread nD τ).loc b))

/-! ## What the output block's buffer and the accumulator hold after each point -/

/-- After the body at position `n`: the case the point is in, run on the point's blocks and on what the point before
    left in the accumulator. -/
def outsAt1 (c : Dev nD) : (n : ℕ) → n < cfg1.N → Vec F S1024x64 .f32 × Vec F S1024x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer at anything);
    afterwards the accumulator at what the point before left in it, every other scoped buffer at anything, and the
    generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the case the point is in is run on the input blocks and on the accumulator as the point before
    left it, and the accumulator is handed on at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ )
            iexact Hoth
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hoth⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ )
            iexact Hoth
          iexact Hg
        isplitl [Ho]; · iexact Ho
        isplitl [H0]; · iexact H0
        isplitl [H1]; · iexact H1
        iexists _; iexact H2
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨HS0, Hoth⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_C_0 c _ _ _ _ _ _ _ _ _ _ _ _ _ _ )
            iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _ )
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hoth⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_B_0 c _ _ _ _ _ _ _ _ _ _ _ _ _ _ )
            iexact Hoth
          iexact Hg
        isplitl [Ho]; · iexact Ho
        isplitl [H0]; · iexact H0
        isplitl [H1]; · iexact H1
        iexists _; iexact H2

theorem body_obligation1 (c : Dev nD) : BodyObligation (dat1 (F := F) V c) (defs₀ (F := F)) Variants.none () Set.univ := fun t => by
  rw [bigSep_W1, bigSep_W1]
  exact sound_body1 V c t

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

theorem PhiLast1 (c : Dev nD) : (dat1 V c).Φ (Fin.last cfg1.N) ⊢ Pipeline.ΦA spec1 c :=
  Phi_out1 V c _ (by rw [Fin.val_last]; have : cfg1.N = 32 := N_1; omega)

end

end Cert.Kernel.Fr

end
-- ==== Proof.KFrRegion2.lean ====
/-
  Region 2 (distances and the row softmax): one case, no carried state. At point t the body reads a block of 128 rows
  of the embedding, the whole transposed embedding, the 128 squared norms of those rows and all 8192 squared norms, and
  stores the 128 finished rows of the result in one store.
-/
import proofs.«111755_j39453569581320_2_alg».proof.Proof.Gen.Kernel.Launch
import proofs.«111755_j39453569581320_2_alg».proof.Proof.Gen.Kernel.Skeleton
import proofs.«111755_j39453569581320_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
end

/-! ## The body's accesses -/

abbrev r2_a : Rect S128x64 := Rect.unit (s := S128x64) ![0, 0] S128x64.size inb_S128x64_S128x64_0_0
abbrev r2_b : Rect S64x8192 := Rect.unit (s := S64x8192) ![0, 0] S64x8192.size inb_S64x8192_S64x8192_0_0
abbrev r2_c : Rect S128x1 := Rect.unit (s := S128x1) ![0, 0] S128x1.size inb_S128x1_S128x1_0_0
abbrev r2_d : Rect S1x8192 := Rect.unit (s := S1x8192) ![0, 0] S1x8192.size inb_S1x8192_S1x8192_0_0
abbrev r2_o : Rect S128x8192 := Rect.unit (s := S128x8192) ![0, 0] S128x8192.size inb_S128x8192_S128x8192_0_0

/-- The output block's buffer after the body, from the four input blocks: its one store. -/
def out2_4 (x0 : Vec F S128x64 .f32) (x1 : Vec F S64x8192 .f32) (x2 : Vec F S128x1 .f32) (x3 : Vec F S1x8192 .f32) : Vec F S128x8192 .f32 :=
  View.canon [⟨r2_o, k2_pay1 (View.ld x0 r2_a) (View.ld x1 r2_b) (View.ld x2 r2_c) (View.ld x3 r2_d)⟩]

theorem cover2_4 (p0 : Vec F S128x8192 .f32) (y : S128x8192.Idx) :
    ∃ pc ∈ ([⟨r2_o, p0⟩] : List (View.Piece (Elt F) S128x8192 .f32)), y ∈ pc.1.set :=
  View.cover_of_tiled [⟨r2_o, p0⟩] S128x8192.size (by rfl) y

/-! ## The body's triple -/

set_option maxHeartbeats 4000000 in
theorem sound_kernel2 (c : Dev nD) (i : grid2.Coords) (E : Set ℕ) (arg1 : Memref sig .tc .vmem S128x64 .f32) (harg1 : arg1.IsWhole) (arg2 : Memref sig .tc .vmem S64x8192 .f32) (harg2 : arg2.IsWhole) (arg3 : Memref sig .tc .vmem S128x1 .f32) (harg3 : arg3.IsWhole) (arg4 : Memref sig .tc .vmem S1x8192 .f32) (harg4 : arg4.IsWhole) (arg5 : Memref sig .tc .vmem S128x8192 .f32) (harg5 : arg5.IsWhole)
    (x0 : Vec F S128x64 .f32) (x1 : Vec F S64x8192 .f32) (x2 : Vec F S128x1 .f32) (x3 : Vec F S1x8192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__dist_kernel i arg1 harg1 arg2 harg2 arg3 harg3 arg4 harg4 arg5 harg5) K := by
  simp only [cc2__dist_kernel_eq_skeleton]; unfold cc2__dist_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

section
variable (V : (c : Dev nD) → (b : Ref sig .tc) → Buf (Elt F) ((c : Thread nD τ).loc b))

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c (grid2.coords t) Set.univ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end

end Cert.Kernel.Fr

end
-- ==== Proof.KFrMain.lean ====
/-
  The whole run of the kernel's program: three host stretches and three kernel regions in turn.
  Between two items every unscoped buffer of the core is held at named contents: the launch memory, then each host
  stretch applied, then each region's arrays at what its write-backs leave. The run ends with every unscoped buffer
  at the last of these; the four argument arrays are read back through the chain to the launch memory, and the result
  array is the last region's output array.
-/
import proofs.«111755_j39453569581320_2_alg».proof.Proof.KFrRegion0
import proofs.«111755_j39453569581320_2_alg».proof.Proof.KFrRegion1
import proofs.«111755_j39453569581320_2_alg».proof.Proof.KFrRegion2

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## What the host stretches write -/

theorem hostOps0_fresh : (hostOps0 : List (HloOp τ sig (Elt F))).Forall fun op => op.fresh = ∅ := by
  simp only [List.Forall]; repeat' constructor
abbrev hostOps0_W : List (Ref sig .tc) := [main_v0, main_v1]
theorem hostOps0_writes : (hostOps0 : List (HloOp τ sig (Elt F))).Forall fun op => op.writes ⊆ (hostOps0_W.map (Proc.devRef (τ := τ) .tc)).toFinset := by
  simp only [List.Forall]
  refine ⟨?_, ?_⟩ <;>
    (simp only [StableHlo.nullary_writes, StableHlo.unary_writes, StableHlo.binary_writes, StableHlo.reshape_writes, Finset.singleton_subset_iff, List.mem_toFinset]; exact List.mem_map_of_mem (by decide))

theorem hostOps1_fresh : (hostOps1 : List (HloOp τ sig (Elt F))).Forall fun op => op.fresh = ∅ := by
  simp only [List.Forall]; repeat' constructor
abbrev hostOps1_W : List (Ref sig .tc) := [main_v3, main_v4]
theorem hostOps1_writes : (hostOps1 : List (HloOp τ sig (Elt F))).Forall fun op => op.writes ⊆ (hostOps1_W.map (Proc.devRef (τ := τ) .tc)).toFinset := by
  simp only [List.Forall]
  refine ⟨?_, ?_⟩ <;>
    (simp only [StableHlo.nullary_writes, StableHlo.unary_writes, StableHlo.binary_writes, StableHlo.reshape_writes, Finset.singleton_subset_iff, List.mem_toFinset]; exact List.mem_map_of_mem (by decide))

theorem hostOps2_fresh : (hostOps2 : List (HloOp τ sig (Elt F))).Forall fun op => op.fresh = ∅ := by
  simp only [List.Forall]; repeat' constructor
abbrev hostOps2_W : List (Ref sig .tc) := [main_v6, main_cst, main_v7, main_v8, main_v9, main_v10]
theorem hostOps2_writes : (hostOps2 : List (HloOp τ sig (Elt F))).Forall fun op => op.writes ⊆ (hostOps2_W.map (Proc.devRef (τ := τ) .tc)).toFinset := by
  simp only [List.Forall]
  refine ⟨?_, ?_, ?_, ?_, ?_, ?_⟩ <;>
    (simp only [StableHlo.nullary_writes, StableHlo.unary_writes, StableHlo.binary_writes, StableHlo.reshape_writes, Finset.singleton_subset_iff, List.mem_toFinset]; exact List.mem_map_of_mem (by decide))

/-! ## The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := (W4_arr m c 0).trans (((dat1 (V3 m) c).arrAt_in 0 rfl _).trans (A_eq1 (V3 m) c 0))
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from PhiLast0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from PhiLast1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- Every weakly fair execution of the program from memory `m` with zero counters terminates, nothing faulting, with
    every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- The frame: the run ends with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

/-- The same run with the result array named: the last region's output array after its last point. -/
theorem run_result : θ_run defs (onTc (τ := τ) (main (F := F))) ⟨m, fun _ => 0, ρ⟩ (fun r => ∀ c : Dev nD,
      r.2.mem ((c.tc : Thread nD τ).loc main_v11) = (dat2 (V5 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v11 (by decide))).trans (W6_arr m c 4),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

end Cert.Kernel.Fr

end
-- ==== Proof.FrBase0.lean ====
/-
  Region 0 (the first blocked matrix product): what its three whole-body runs share.
  The grid is 8 row tiles by 4 contraction steps, a point t = 4·i + k. The body clears the accumulator when k = 0,
  adds the step's partial product, and when k = 3 copies the accumulator, clamped at zero, into the output block.
  So a point is in one of three cases: k = 0 (clear and add), k = 1, 2 (add), k = 3 (add and write the block).
-/
import proofs.«111755_j39453569581320_2_alg».proof.Proof.Gen.KernelIdeal.Launch
import proofs.«111755_j39453569581320_2_alg».proof.Proof.Gen.KernelIdeal.Skeleton
import proofs.«111755_j39453569581320_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-! ## The two branch conditions, decided over the grid -/

/-- The first `if`: the contraction step is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second `if`: the contraction step is the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1024x256 .f32 := (Memref.whole cc0_stg2_0 : Memref sig .tc .vmem S1024x256 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0_0 : Memref sig .tc .vmem S1024x256 .f32 := Memref.whole cc0_scratch0
abbrev VS0_0 : View sig .tc .vmem S1024x256 .f32 := scM0_0.view

/-- The region's scoped rest split at the accumulator. -/
theorem scopedRest0_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f)
          ∗ Pipeline.scopedRestBut (Ix := Ix) (Name := Name) (U := U) (Lvl := Lvl) (Val := Val) spec0 c [cc0_scratch0]) :=
  Pipeline.scopedRest_split_of_list spec0 c [cc0_scratch0] (by decide) (by decide)

/-- Every other scoped buffer of the core, unopened. -/
abbrev others0 (c : Dev nD) : sProp 𝕄 :=
  Pipeline.scopedRestBut (Ix := Unit) (Name := ℕ) (U := UR sig nD τ) (Lvl := ℕ) (Val := Elt F) spec0 c [cc0_scratch0]

/-- The class invariant with the accumulator as a memref owned at some contents. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA; rw [scopedRest0_split]; simp only [scM0_0, owns_whole]; try rfl

end Cert.KernelIdeal.Fr

end
-- ==== Proof.FrRun0A.lean ====
/-
  Region 0, the first contraction step: the accumulator is cleared, then the step's partial product is added; the output block is left untouched.
  The whole body run once on whole staging memrefs; the pieces each buffer ends with are what the run finds.
-/
import proofs.«111755_j39453569581320_2_alg».proof.Proof.FrBase0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : cond0_0 i) (hc1 : ¬cond0_1 i)
    (x0 : Vec F S1024x2048 .f32) (x1 : Vec F S8192x256 .bf16) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mm_kernel i arg2 harg2 arg3 harg3 arg4 harg4 arg5 harg5) K } := by
  refine ⟨[], ?_, fun xi2 E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.FrRun0B.lean ====
/-
  Region 0, a middle contraction step: the step's partial product is added to the accumulator; the output block is left untouched.
  The whole body run once on whole staging memrefs; the pieces each buffer ends with are what the run finds.
-/
import proofs.«111755_j39453569581320_2_alg».proof.Proof.FrBase0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : ¬cond0_1 i)
    (x0 : Vec F S1024x2048 .f32) (x1 : Vec F S8192x256 .bf16) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mm_kernel i arg2 harg2 arg3 harg3 arg4 harg4 arg5 harg5) K } := by
  refine ⟨[], ?_, fun xi2 E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.FrRun0C.lean ====
/-
  Region 0, the last contraction step: the step's partial product is added to the accumulator, which is then written, clamped at zero, into the output block.
  The whole body run once on whole staging memrefs; the pieces each buffer ends with are what the run finds.
-/
import proofs.«111755_j39453569581320_2_alg».proof.Proof.FrBase0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S8192x256 .bf16) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__mm_kernel i arg2 harg2 arg3 harg3 arg4 harg4 arg5 harg5) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.FrRegion0.lean ====
/-
  Region 0 (the first blocked matrix product): what the accumulator and the output block hold after each grid point,
  the pipeline's proof data over them, and the body obligation.
  After point t = 4·i + k the accumulator holds the sum of the first k + 1 partial products of row tile i; the output
  block is written at k = 3 only. The region's invariant carries the accumulator at exactly these contents from one
  point to the next; every other scoped buffer of the core rides along unopened.
-/
import proofs.«111755_j39453569581320_2_alg».proof.Proof.FrRun0A
import proofs.«111755_j39453569581320_2_alg».proof.Proof.FrRun0B
import proofs.«111755_j39453569581320_2_alg».proof.Proof.FrRun0C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output block's staging buffer (nothing is stored: a placeholder no one reads). -/
def out0_A_2 (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : cond0_0 i) (hc1 : ¬cond0_1 i)
    (x0 : Vec F S1024x2048 .f32) (x1 : Vec F S8192x256 .bf16) : Vec F S1024x256 .f32 :=
  VO0_2.read (Elt F) (VO0_2.writes (Elt F) VO0_2.junk (kernelRun0_A c i arg2 harg2 arg3 harg3 arg4 harg4 arg5 harg5 hc0 hc1 x0 x1).1)

/-- Case A's stores cover the accumulator. -/
theorem scover0_A_0 (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : cond0_0 i) (hc1 : ¬cond0_1 i)
    (x0 : Vec F S1024x2048 .f32) (x1 : Vec F S8192x256 .bf16) (y : S1024x256.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x256.size (by sl_kernel_rfl) y

/-- What case A leaves in the accumulator. -/
def sout0_A_0 (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : cond0_0 i) (hc1 : ¬cond0_1 i)
    (x0 : Vec F S1024x2048 .f32) (x1 : Vec F S8192x256 .bf16) : Vec F S1024x256 .f32 :=
  VS0_0.read (Elt F) (VS0_0.writes (Elt F) VS0_0.junk (kernelRun0_A c i arg2 harg2 arg3 harg3 arg4 harg4 arg5 harg5 hc0 hc1 x0 x1).2.1)

/-- What case B leaves in the output block's staging buffer (nothing is stored: a placeholder no one reads). -/
def out0_B_2 (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : ¬cond0_1 i)
    (x0 : Vec F S1024x2048 .f32) (x1 : Vec F S8192x256 .bf16) (xs0 : Vec F S1024x256 .f32) : Vec F S1024x256 .f32 :=
  VO0_2.read (Elt F) (VO0_2.writes (Elt F) VO0_2.junk (kernelRun0_B c i arg2 harg2 arg3 harg3 arg4 harg4 arg5 harg5 hc0 hc1 x0 x1 xs0).1)

/-- Case B's stores cover the accumulator. -/
theorem scover0_B_0 (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : ¬cond0_1 i)
    (x0 : Vec F S1024x2048 .f32) (x1 : Vec F S8192x256 .bf16) (xs0 : Vec F S1024x256 .f32) (y : S1024x256.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x256.size (by sl_kernel_rfl) y

/-- What case B leaves in the accumulator. -/
def sout0_B_0 (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : ¬cond0_1 i)
    (x0 : Vec F S1024x2048 .f32) (x1 : Vec F S8192x256 .bf16) (xs0 : Vec F S1024x256 .f32) : Vec F S1024x256 .f32 :=
  VS0_0.read (Elt F) (VS0_0.writes (Elt F) VS0_0.junk (kernelRun0_B c i arg2 harg2 arg3 harg3 arg4 harg4 arg5 harg5 hc0 hc1 x0 x1 xs0).2.1)

/-- What case C leaves in the output block's staging buffer. -/
def out0_C_2 (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S8192x256 .bf16) (xs0 : Vec F S1024x256 .f32) : Vec F S1024x256 .f32 :=
  VO0_2.read (Elt F) (VO0_2.writes (Elt F) VO0_2.junk (kernelRun0_C c i arg2 harg2 arg3 harg3 arg4 harg4 arg5 harg5 hc0 hc1 x0 x1 xs0).1)

/-- Case C's store covers the output block. -/
theorem cover0_C_2 (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S8192x256 .bf16) (xs0 : Vec F S1024x256 .f32) (y : S1024x256.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x256.size (by sl_kernel_rfl) y

/-- Case C's stores cover the accumulator. -/
theorem scover0_C_0 (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S8192x256 .bf16) (xs0 : Vec F S1024x256 .f32) (y : S1024x256.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x256.size (by sl_kernel_rfl) y

/-- What case C leaves in the accumulator. -/
def sout0_C_0 (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S8192x256 .bf16) (xs0 : Vec F S1024x256 .f32) : Vec F S1024x256 .f32 :=
  VS0_0.read (Elt F) (VS0_0.writes (Elt F) VS0_0.junk (kernelRun0_C c i arg2 harg2 arg3 harg3 arg4 harg4 arg5 harg5 hc0 hc1 x0 x1 xs0).2.1)

section
variable (V : (c : Dev nD) → (b : Ref sig .tc) → Buf (Elt F) ((c : Thread nD τ).loc b))

/-! ## What the output block's buffer and the accumulator hold after each point -/

/-- After the body at position `n`: the case the point is in, run on the point's blocks and on what the point before
    left in the accumulator. -/
def outsAt0 (c : Dev nD) : (n : ℕ) → n < cfg0.N → Vec F S1024x256 .f32 × Vec F S1024x256 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer at anything);
    afterwards the accumulator at what the point before left in it, every other scoped buffer at anything, and the
    generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the case the point is in is run on the input blocks and on the accumulator as the point before
    left it, and the accumulator is handed on at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ )
            iexact Hoth
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ )
            iexact Hoth
          iexact Hg
        isplitl [Ho]; · iexact Ho
        isplitl [H0]; · iexact H0
        isplitl [H1]; · iexact H1
        iexists _; iexact H2
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _ _ _ _ )
            iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ )
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _ _ _ _ )
            iexact Hoth
          iexact Hg
        isplitl [Ho]; · iexact Ho
        isplitl [H0]; · iexact H0
        isplitl [H1]; · iexact H1
        iexists _; iexact H2

theorem body_obligation0 (c : Dev nD) : BodyObligation (dat0 (F := F) V c) (defs₀ (F := F)) Variants.none () Set.univ := fun t => by
  rw [bigSep_W0, bigSep_W0]
  exact sound_body0 V c t

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

theorem PhiLast0 (c : Dev nD) : (dat0 V c).Φ (Fin.last cfg0.N) ⊢ Pipeline.ΦA spec0 c :=
  Phi_out0 V c _ (by rw [Fin.val_last]; have : cfg0.N = 32 := N_0; omega)

end

end Cert.KernelIdeal.Fr

end
-- ==== Proof.FrBase1.lean ====
/-
  Region 1 (the second blocked matrix product): what its three whole-body runs share.
  The grid is 8 row tiles by 4 contraction steps, a point t = 4·i + k. The body clears the accumulator when k = 0,
  adds the step's partial product, and when k = 3 copies the accumulator into the output block.
  So a point is in one of three cases: k = 0 (clear and add), k = 1, 2 (add), k = 3 (add and write the block).
-/
import proofs.«111755_j39453569581320_2_alg».proof.Proof.Gen.KernelIdeal.Launch
import proofs.«111755_j39453569581320_2_alg».proof.Proof.Gen.KernelIdeal.Skeleton
import proofs.«111755_j39453569581320_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-! ## The two branch conditions, decided over the grid -/

/-- The first `if`: the contraction step is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second `if`: the contraction step is the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S1024x64 .f32 := (Memref.whole cc1_stg2_0 : Memref sig .tc .vmem S1024x64 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .f32 := win1_2.stage (cfg1.slots t 2)
abbrev hs1_2 (t : Fin cfg1.N) : (ms1_2 t).IsWhole := hstage1_2 ((cfg1.slots t 2).cast nbuf1_2)
/-- The accumulator: a whole scoped buffer of the kernel's own, carried from point to point. -/
abbrev scM1_0 : Memref sig .tc .vmem S1024x64 .f32 := Memref.whole cc1_scratch0
abbrev VS1_0 : View sig .tc .vmem S1024x64 .f32 := scM1_0.view

/-- The region's scoped rest split at the accumulator. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc1_scratch0), ((c : Thread nD τ).loc cc1_scratch0) ↦{fullShare} f)
          ∗ Pipeline.scopedRestBut (Ix := Ix) (Name := Name) (U := U) (Lvl := Lvl) (Val := Val) spec1 c [cc1_scratch0]) :=
  Pipeline.scopedRest_split_of_list spec1 c [cc1_scratch0] (by decide) (by decide)

/-- Every other scoped buffer of the core, unopened. -/
abbrev others1 (c : Dev nD) : sProp 𝕄 :=
  Pipeline.scopedRestBut (Ix := Unit) (Name := ℕ) (U := UR sig nD τ) (Lvl := ℕ) (Val := Elt F) spec1 c [cc1_scratch0]

/-- The class invariant with the accumulator as a memref owned at some contents. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA; rw [scopedRest1_split]; simp only [scM1_0, owns_whole]; try rfl

end Cert.KernelIdeal.Fr

end
-- ==== Proof.FrRun1A.lean ====
/-
  Region 1, the first contraction step: the accumulator is cleared, then the step's partial product is added; the output block is left untouched.
  The whole body run once on whole staging memrefs; the pieces each buffer ends with are what the run finds.
-/
import proofs.«111755_j39453569581320_2_alg».proof.Proof.FrBase1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : cond1_0 i) (hc1 : ¬cond1_1 i)
    (x0 : Vec F S1024x2048 .f32) (x1 : Vec F S8192x64 .bf16) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨[], ?_, fun xi2 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.FrRun1B.lean ====
/-
  Region 1, a middle contraction step: the step's partial product is added to the accumulator; the output block is left untouched.
  The whole body run once on whole staging memrefs; the pieces each buffer ends with are what the run finds.
-/
import proofs.«111755_j39453569581320_2_alg».proof.Proof.FrBase1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : ¬cond1_1 i)
    (x0 : Vec F S1024x2048 .f32) (x1 : Vec F S8192x64 .bf16) (xs0 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨[], ?_, fun xi2 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.FrRun1C.lean ====
/-
  Region 1, the last contraction step: the step's partial product is added to the accumulator, which is then written into the output block.
  The whole body run once on whole staging memrefs; the pieces each buffer ends with are what the run finds.
-/
import proofs.«111755_j39453569581320_2_alg».proof.Proof.FrBase1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S8192x64 .bf16) (xs0 : Vec F S1024x64 .f32) :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__mm_kernel i arg2 harg2 arg3 harg3 arg4 harg4 arg5 harg5) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.FrRegion1.lean ====
/-
  Region 1 (the second blocked matrix product): what the accumulator and the output block hold after each grid point,
  the pipeline's proof data over them, and the body obligation.
  After point t = 4·i + k the accumulator holds the sum of the first k + 1 partial products of row tile i; the output
  block is written at k = 3 only. The region's invariant carries the accumulator at exactly these contents from one
  point to the next; every other scoped buffer of the core rides along unopened.
-/
import proofs.«111755_j39453569581320_2_alg».proof.Proof.FrRun1A
import proofs.«111755_j39453569581320_2_alg».proof.Proof.FrRun1B
import proofs.«111755_j39453569581320_2_alg».proof.Proof.FrRun1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output block's staging buffer (nothing is stored: a placeholder no one reads). -/
def out1_A_2 (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : cond1_0 i) (hc1 : ¬cond1_1 i)
    (x0 : Vec F S1024x2048 .f32) (x1 : Vec F S8192x64 .bf16) : Vec F S1024x64 .f32 :=
  VO1_2.read (Elt F) (VO1_2.writes (Elt F) VO1_2.junk (kernelRun1_A c i arg2 harg2 arg3 harg3 arg4 harg4 arg5 harg5 hc0 hc1 x0 x1).1)

/-- Case A's stores cover the accumulator. -/
theorem scover1_A_0 (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : cond1_0 i) (hc1 : ¬cond1_1 i)
    (x0 : Vec F S1024x2048 .f32) (x1 : Vec F S8192x64 .bf16) (y : S1024x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x64.size (by sl_kernel_rfl) y

/-- What case A leaves in the accumulator. -/
def sout1_A_0 (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : cond1_0 i) (hc1 : ¬cond1_1 i)
    (x0 : Vec F S1024x2048 .f32) (x1 : Vec F S8192x64 .bf16) : Vec F S1024x64 .f32 :=
  VS1_0.read (Elt F) (VS1_0.writes (Elt F) VS1_0.junk (kernelRun1_A c i arg2 harg2 arg3 harg3 arg4 harg4 arg5 harg5 hc0 hc1 x0 x1).2.1)

/-- What case B leaves in the output block's staging buffer (nothing is stored: a placeholder no one reads). -/
def out1_B_2 (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : ¬cond1_1 i)
    (x0 : Vec F S1024x2048 .f32) (x1 : Vec F S8192x64 .bf16) (xs0 : Vec F S1024x64 .f32) : Vec F S1024x64 .f32 :=
  VO1_2.read (Elt F) (VO1_2.writes (Elt F) VO1_2.junk (kernelRun1_B c i arg2 harg2 arg3 harg3 arg4 harg4 arg5 harg5 hc0 hc1 x0 x1 xs0).1)

/-- Case B's stores cover the accumulator. -/
theorem scover1_B_0 (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : ¬cond1_1 i)
    (x0 : Vec F S1024x2048 .f32) (x1 : Vec F S8192x64 .bf16) (xs0 : Vec F S1024x64 .f32) (y : S1024x64.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x64.size (by sl_kernel_rfl) y

/-- What case B leaves in the accumulator. -/
def sout1_B_0 (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : ¬cond1_1 i)
    (x0 : Vec F S1024x2048 .f32) (x1 : Vec F S8192x64 .bf16) (xs0 : Vec F S1024x64 .f32) : Vec F S1024x64 .f32 :=
  VS1_0.read (Elt F) (VS1_0.writes (Elt F) VS1_0.junk (kernelRun1_B c i arg2 harg2 arg3 harg3 arg4 harg4 arg5 harg5 hc0 hc1 x0 x1 xs0).2.1)

/-- What case C leaves in the output block's staging buffer. -/
def out1_C_2 (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S8192x64 .bf16) (xs0 : Vec F S1024x64 .f32) : Vec F S1024x64 .f32 :=
  VO1_2.read (Elt F) (VO1_2.writes (Elt F) VO1_2.junk (kernelRun1_C c i arg2 harg2 arg3 harg3 arg4 harg4 arg5 harg5 hc0 hc1 x0 x1 xs0).1)

/-- Case C's store covers the output block. -/
theorem cover1_C_2 (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S8192x64 .bf16) (xs0 : Vec F S1024x64 .f32) (y : S1024x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x64.size (by sl_kernel_rfl) y

/-- Case C's stores cover the accumulator. -/
theorem scover1_C_0 (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S8192x64 .bf16) (xs0 : Vec F S1024x64 .f32) (y : S1024x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x64.size (by sl_kernel_rfl) y

/-- What case C leaves in the accumulator. -/
def sout1_C_0 (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i)
    (x0 : Vec F S1024x2048 .f32) (x1 : Vec F S8192x64 .bf16) (xs0 : Vec F S1024x64 .f32) : Vec F S1024x64 .f32 :=
  VS1_0.read (Elt F) (VS1_0.writes (Elt F) VS1_0.junk (kernelRun1_C c i arg2 harg2 arg3 harg3 arg4 harg4 arg5 harg5 hc0 hc1 x0 x1 xs0).2.1)

section
variable (V : (c : Dev nD) → (b : Ref sig .tc) → Buf (Elt F) ((c : Thread nD τ).loc b))

/-! ## What the output block's buffer and the accumulator hold after each point -/

/-- After the body at position `n`: the case the point is in, run on the point's blocks and on what the point before
    left in the accumulator. -/
def outsAt1 (c : Dev nD) : (n : ℕ) → n < cfg1.N → Vec F S1024x64 .f32 × Vec F S1024x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer at anything);
    afterwards the accumulator at what the point before left in it, every other scoped buffer at anything, and the
    generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the case the point is in is run on the input blocks and on the accumulator as the point before
    left it, and the accumulator is handed on at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ )
            iexact Hoth
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hoth⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ )
            iexact Hoth
          iexact Hg
        isplitl [Ho]; · iexact Ho
        isplitl [H0]; · iexact H0
        isplitl [H1]; · iexact H1
        iexists _; iexact H2
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨HS0, Hoth⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_C_0 c _ _ _ _ _ _ _ _ _ _ _ _ _ _ )
            iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _ )
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hoth⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_B_0 c _ _ _ _ _ _ _ _ _ _ _ _ _ _ )
            iexact Hoth
          iexact Hg
        isplitl [Ho]; · iexact Ho
        isplitl [H0]; · iexact H0
        isplitl [H1]; · iexact H1
        iexists _; iexact H2

theorem body_obligation1 (c : Dev nD) : BodyObligation (dat1 (F := F) V c) (defs₀ (F := F)) Variants.none () Set.univ := fun t => by
  rw [bigSep_W1, bigSep_W1]
  exact sound_body1 V c t

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

theorem PhiLast1 (c : Dev nD) : (dat1 V c).Φ (Fin.last cfg1.N) ⊢ Pipeline.ΦA spec1 c :=
  Phi_out1 V c _ (by rw [Fin.val_last]; have : cfg1.N = 32 := N_1; omega)

end

end Cert.KernelIdeal.Fr

end
-- ==== Proof.FrRegion2.lean ====
/-
  Region 2 (distances and the row softmax): one case, no carried state. At point t the body reads a block of 128 rows
  of the embedding, the whole transposed embedding, the 128 squared norms of those rows and all 8192 squared norms, and
  stores the 128 finished rows of the result in one store.
-/
import proofs.«111755_j39453569581320_2_alg».proof.Proof.Gen.KernelIdeal.Launch
import proofs.«111755_j39453569581320_2_alg».proof.Proof.Gen.KernelIdeal.Skeleton
import proofs.«111755_j39453569581320_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
end

/-! ## The body's accesses -/

abbrev r2_a : Rect S128x64 := Rect.unit (s := S128x64) ![0, 0] S128x64.size inb_S128x64_S128x64_0_0
abbrev r2_b : Rect S64x8192 := Rect.unit (s := S64x8192) ![0, 0] S64x8192.size inb_S64x8192_S64x8192_0_0
abbrev r2_c : Rect S128x1 := Rect.unit (s := S128x1) ![0, 0] S128x1.size inb_S128x1_S128x1_0_0
abbrev r2_d : Rect S1x8192 := Rect.unit (s := S1x8192) ![0, 0] S1x8192.size inb_S1x8192_S1x8192_0_0
abbrev r2_o : Rect S128x8192 := Rect.unit (s := S128x8192) ![0, 0] S128x8192.size inb_S128x8192_S128x8192_0_0

/-- The output block's buffer after the body, from the four input blocks: its one store. -/
def out2_4 (x0 : Vec F S128x64 .f32) (x1 : Vec F S64x8192 .f32) (x2 : Vec F S128x1 .f32) (x3 : Vec F S1x8192 .f32) : Vec F S128x8192 .f32 :=
  View.canon [⟨r2_o, k2_pay1 (View.ld x0 r2_a) (View.ld x1 r2_b) (View.ld x2 r2_c) (View.ld x3 r2_d)⟩]

theorem cover2_4 (p0 : Vec F S128x8192 .f32) (y : S128x8192.Idx) :
    ∃ pc ∈ ([⟨r2_o, p0⟩] : List (View.Piece (Elt F) S128x8192 .f32)), y ∈ pc.1.set :=
  View.cover_of_tiled [⟨r2_o, p0⟩] S128x8192.size (by rfl) y

/-! ## The body's triple -/

set_option maxHeartbeats 4000000 in
theorem sound_kernel2 (c : Dev nD) (i : grid2.Coords) (E : Set ℕ) (arg1 : Memref sig .tc .vmem S128x64 .f32) (harg1 : arg1.IsWhole) (arg2 : Memref sig .tc .vmem S64x8192 .f32) (harg2 : arg2.IsWhole) (arg3 : Memref sig .tc .vmem S128x1 .f32) (harg3 : arg3.IsWhole) (arg4 : Memref sig .tc .vmem S1x8192 .f32) (harg4 : arg4.IsWhole) (arg5 : Memref sig .tc .vmem S128x8192 .f32) (harg5 : arg5.IsWhole)
    (x0 : Vec F S128x64 .f32) (x1 : Vec F S64x8192 .f32) (x2 : Vec F S128x1 .f32) (x3 : Vec F S1x8192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__dist_kernel i arg1 harg1 arg2 harg2 arg3 harg3 arg4 harg4 arg5 harg5) K := by
  simp only [cc2__dist_kernel_eq_skeleton]; unfold cc2__dist_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

section
variable (V : (c : Dev nD) → (b : Ref sig .tc) → Buf (Elt F) ((c : Thread nD τ).loc b))

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c (grid2.coords t) Set.univ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end

end Cert.KernelIdeal.Fr

end
-- ==== Proof.FrMain.lean ====
/-
  The whole run of the kernel's program: three host stretches and three kernel regions in turn.
  Between two items every unscoped buffer of the core is held at named contents: the launch memory, then each host
  stretch applied, then each region's arrays at what its write-backs leave. The run ends with every unscoped buffer
  at the last of these; the four argument arrays are read back through the chain to the launch memory, and the result
  array is the last region's output array.
-/
import proofs.«111755_j39453569581320_2_alg».proof.Proof.FrRegion0
import proofs.«111755_j39453569581320_2_alg».proof.Proof.FrRegion1
import proofs.«111755_j39453569581320_2_alg».proof.Proof.FrRegion2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## What the host stretches write -/

theorem hostOps0_fresh : (hostOps0 : List (HloOp τ sig (Elt F))).Forall fun op => op.fresh = ∅ := by
  simp only [List.Forall]; repeat' constructor
abbrev hostOps0_W : List (Ref sig .tc) := [main_v0, main_v1]
theorem hostOps0_writes : (hostOps0 : List (HloOp τ sig (Elt F))).Forall fun op => op.writes ⊆ (hostOps0_W.map (Proc.devRef (τ := τ) .tc)).toFinset := by
  simp only [List.Forall]
  refine ⟨?_, ?_⟩ <;>
    (simp only [StableHlo.nullary_writes, StableHlo.unary_writes, StableHlo.binary_writes, StableHlo.reshape_writes, Finset.singleton_subset_iff, List.mem_toFinset]; exact List.mem_map_of_mem (by decide))

theorem hostOps1_fresh : (hostOps1 : List (HloOp τ sig (Elt F))).Forall fun op => op.fresh = ∅ := by
  simp only [List.Forall]; repeat' constructor
abbrev hostOps1_W : List (Ref sig .tc) := [main_v3, main_v4]
theorem hostOps1_writes : (hostOps1 : List (HloOp τ sig (Elt F))).Forall fun op => op.writes ⊆ (hostOps1_W.map (Proc.devRef (τ := τ) .tc)).toFinset := by
  simp only [List.Forall]
  refine ⟨?_, ?_⟩ <;>
    (simp only [StableHlo.nullary_writes, StableHlo.unary_writes, StableHlo.binary_writes, StableHlo.reshape_writes, Finset.singleton_subset_iff, List.mem_toFinset]; exact List.mem_map_of_mem (by decide))

theorem hostOps2_fresh : (hostOps2 : List (HloOp τ sig (Elt F))).Forall fun op => op.fresh = ∅ := by
  simp only [List.Forall]; repeat' constructor
abbrev hostOps2_W : List (Ref sig .tc) := [main_v6, main_cst, main_v7, main_v8, main_v9, main_v10]
theorem hostOps2_writes : (hostOps2 : List (HloOp τ sig (Elt F))).Forall fun op => op.writes ⊆ (hostOps2_W.map (Proc.devRef (τ := τ) .tc)).toFinset := by
  simp only [List.Forall]
  refine ⟨?_, ?_, ?_, ?_, ?_, ?_⟩ <;>
    (simp only [StableHlo.nullary_writes, StableHlo.unary_writes, StableHlo.binary_writes, StableHlo.reshape_writes, Finset.singleton_subset_iff, List.mem_toFinset]; exact List.mem_map_of_mem (by decide))

/-! ## The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := (W4_arr m c 0).trans (((dat1 (V3 m) c).arrAt_in 0 rfl _).trans (A_eq1 (V3 m) c 0))
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from PhiLast0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from PhiLast1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- Every weakly fair execution of the program from memory `m` with zero counters terminates, nothing faulting, with
    every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- The frame: the run ends with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

/-- The same run with the result array named: the last region's output array after its last point. -/
theorem run_result : θ_run defs (onTc (τ := τ) (main (F := F))) ⟨m, fun _ => 0, ρ⟩ (fun r => ∀ c : Dev nD,
      r.2.mem ((c.tc : Thread nD τ).loc main_v11) = (dat2 (V5 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v11 (by decide))).trans (W6_arr m c 4),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

end Cert.KernelIdeal.Fr

end
-- ==== Proof.ValPieces0.lean ====
/-
  Region 0 (the first blocked matrix product): what each case of the body leaves, as the kernel's arithmetic applied to
  the point's blocks, and the blocks themselves as entries of the arrays.

  A point t = 4·i + k of the 8 × 4 grid works on rows 1024·i … of the left matrix and columns 2048·k … of it (its
  block of window 0), on the whole right matrix (window 1), of which the body takes the rows 2048·k …, and on the
  accumulator. Each case stores one whole block: the arithmetic of the step applied to these. Every statement is for
  any float instance; nothing is evaluated.
-/
import proofs.«111755_j39453569581320_2_alg».proof.Proof.FrRegion0
import Idealize.ShloMosaic.Lib.ValueIdx
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

theorem hz0 : (![0, 0] : Fin 2 → Nat) = fun _ => 0 := funext fun a => by fin_cases a <;> rfl

/-- The rows of the right matrix that the step multiplies by: 2048 rows from the step's offset. -/
def slice0 (i : grid0.Coords) (x1 : Vec F S8192x256 .bf16) : Vec F S2048x256 .bf16 :=
  View.ld x1 (Rect.unit (s := S8192x256) (k0_off1 i) S2048x256.size (Facts₀.k0_off1_inb i))

/-! ## What each case leaves -/

/-- The first step leaves in the accumulator the step's product added to the zero fill. -/
theorem soutA0_eq (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : cond0_0 i) (hc1 : ¬cond0_1 i) (x0 : Vec F S1024x2048 .f32) (x1 : Vec F S8192x256 .bf16) :
    sout0_A_0 c i arg2 harg2 arg3 harg3 arg4 harg4 arg5 harg5 hc0 hc1 x0 x1 = k0_pay2 x0 (slice0 i x1) k0_pay1 := by
  unfold sout0_A_0
  rw [View.read_writes_eq_canon _ _ _ (scover0_A_0 c i arg2 harg2 arg3 harg3 arg4 harg4 arg5 harg5 hc0 hc1 x0 x1)]
  unfold kernelRun0_A
  dsimp only
  try sl_unfold_run_names
  rw [View.canon_cons_unit_zero hz0, View.readCov_unit_zero (S := S1024x256) _ hz0]
  simp only [View.readAt_eq_ld, harg2.read_unread, harg3.read_unread, View.ld_unit_zero (S := S1024x2048) hz0]
  rfl

/-- A middle step leaves in the accumulator the step's product added to what it held. -/
theorem soutB0_eq (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : ¬cond0_1 i) (x0 : Vec F S1024x2048 .f32) (x1 : Vec F S8192x256 .bf16) (xs0 : Vec F S1024x256 .f32) :
    sout0_B_0 c i arg2 harg2 arg3 harg3 arg4 harg4 arg5 harg5 hc0 hc1 x0 x1 xs0 = k0_pay2 x0 (slice0 i x1) xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  try sl_unfold_run_names
  rw [View.canon_unit_zero hz0]
  simp only [View.readAt_eq_ld, harg2.read_unread, harg3.read_unread, harg5.read_unread, View.ld_unit_zero (S := S1024x2048) hz0, View.ld_unit_zero (S := S1024x256) hz0]
  rfl

/-- So does the last step … -/
theorem soutC0_eq (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i) (x0 : Vec F S1024x2048 .f32) (x1 : Vec F S8192x256 .bf16) (xs0 : Vec F S1024x256 .f32) :
    sout0_C_0 c i arg2 harg2 arg3 harg3 arg4 harg4 arg5 harg5 hc0 hc1 x0 x1 xs0 = k0_pay2 x0 (slice0 i x1) xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  try sl_unfold_run_names
  rw [View.canon_unit_zero hz0]
  simp only [View.readAt_eq_ld, harg2.read_unread, harg3.read_unread, harg5.read_unread, View.ld_unit_zero (S := S1024x2048) hz0, View.ld_unit_zero (S := S1024x256) hz0]
  rfl

/-- … which also writes the accumulator's new contents, clamped at zero, into the output block. -/
theorem outC0_eq (c : Dev nD) (i : grid0.Coords) (arg2 : Memref sig .tc .vmem S1024x2048 .f32) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i) (x0 : Vec F S1024x2048 .f32) (x1 : Vec F S8192x256 .bf16) (xs0 : Vec F S1024x256 .f32) :
    out0_C_2 c i arg2 harg2 arg3 harg3 arg4 harg4 arg5 harg5 hc0 hc1 x0 x1 xs0 = k0_pay3 (k0_pay2 x0 (slice0 i x1) xs0) := by
  unfold out0_C_2
  rw [View.read_writes_eq_canon _ _ _ (cover0_C_2 c i arg2 harg2 arg3 harg3 arg4 harg4 arg5 harg5 hc0 hc1 x0 x1 xs0)]
  unfold kernelRun0_C
  dsimp only
  try sl_unfold_run_names
  rw [View.canon_unit_zero hz0, View.readCov_unit_zero (S := S1024x256) _ hz0]
  simp only [View.readAt_eq_ld, harg2.read_unread, harg3.read_unread, harg5.read_unread, View.ld_unit_zero (S := S1024x2048) hz0, View.ld_unit_zero (S := S1024x256) hz0]
  rfl

/-! ## The blocks as entries of the arrays -/

/-- The block indices and the contraction step at each point, decided over the grid. -/
theorem idx0 : ∀ t : Fin cfg0.N, win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = t.val / 4 ∧ win0_2.index t (1 : Fin 2) = 0
    ∧ (grid0.coords t (1 : Fin 2)).val = t.val % 4 :=
  (by decide +kernel : ∀ t : Fin grid0.N, win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = t.val / 4 ∧ win0_2.index t (1 : Fin 2) = 0
    ∧ (grid0.coords t (1 : Fin 2)).val = t.val % 4)

/-- The step's rows of the right matrix, at an entry. -/
theorem slice0_apply (i : grid0.Coords) (x1 : Vec F S8192x256 .bf16) (cc : Fin 2048) (j : Fin 256) (N : Fin 8192)
    (hN : N.val = 2048 * (i (1 : Fin 2)).val + cc.val) : slice0 i x1 (ix2 cc j) = x1 (ix2 N j) := by
  unfold slice0
  show x1 _ = x1 _
  congr 1
  funext a
  apply Fin.ext
  match a with
  | ⟨0, _⟩ => show k0_off1 i 0 + 1 * cc.val = N.val; rw [k0_off1_eq i, hN]; show 2048 * (i 1).val + 1 * cc.val = _; omega
  | ⟨1, _⟩ => show k0_off1 i 1 + 1 * j.val = j.val; rw [k0_off1_eq i]; show 0 + 1 * j.val = _; omega

section
variable (V : (c : Dev nD) → (b : Ref sig .tc) → Buf (Elt F) ((c : Thread nD τ).loc b))

/-- Window 0's block at point t is rows 1024·(t/4) … and columns 2048·(t%4) … of the left matrix. -/
theorem iblk0_0_apply (c : Dev nD) (t : Fin cfg0.N) (r : Fin 1024) (cc : Fin 2048) (R C : Fin 8192)
    (hR : R.val = 1024 * (t.val / 4) + r.val) (hC : C.val = 2048 * (t.val % 4) + cc.val) :
    (iblk0 V c 0 t : Vec F S1024x2048 .f32) (ix2 r cc) = (V c main_arg0 : S8192x8192.Idx → Elt F .f32) (ix2 R C) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 1024 + 1 * r.val = R.val; rw [e0, hR]; omega
  | ⟨1, _⟩ => show win0_0.index t 1 * 2048 + 1 * cc.val = C.val; rw [e1, hC]; omega

/-- Window 1's block at every point is the whole right matrix. -/
theorem iblk0_1_apply (c : Dev nD) (t : Fin cfg0.N) (N : Fin 8192) (j : Fin 256) :
    (iblk0 V c 1 t : Vec F S8192x256 .bf16) (ix2 N j) = (V c main_v1 : S8192x256.Idx → Elt F .bf16) (ix2 N j) := by
  obtain ⟨-, -, e0, e1, -⟩ := idx0 t
  unfold iblk0
  rw [View.read_apply]
  show V c main_v1 _ = V c main_v1 _
  congr 1
  funext a
  apply Fin.ext
  match a with
  | ⟨0, _⟩ => show win0_1.index t 0 * 8192 + 1 * N.val = N.val; rw [e0]; omega
  | ⟨1, _⟩ => show win0_1.index t 1 * 256 + 1 * j.val = j.val; rw [e1]; omega

/-! ## The accumulator from point to point -/

/-- At a first step the accumulator is left at the step's product added to the zero fill. -/
theorem acc0_first (c : Dev nD) (t : Fin cfg0.N) (h0 : t.val % 4 = 0) :
    (outsAt0 V c t.val t.isLt).2
      = k0_pay2 (iblk0 V c 0 t) (slice0 (grid0.coords t) (iblk0 V c 1 t)) k0_pay1 := by
  rw [outsAt0_A V c t h0 (by omega)]
  dsimp only
  exact soutA0_eq c (grid0.coords t) (ms0_0 t) (hs0_0 t) (ms0_1 t) (hs0_1 t) (ms0_2 t) (hs0_2 t) scM0_0 (Memref.isWhole_whole _) _ _
    (iblk0 V c 0 t) (iblk0 V c 1 t)

/-- At any other step it is left at the step's product added to what the point before left. -/
theorem acc0_next (c : Dev nD) (t : Fin cfg0.N) (h0 : ¬t.val % 4 = 0) :
    (outsAt0 V c t.val t.isLt).2
      = k0_pay2 (iblk0 V c 0 t) (slice0 (grid0.coords t) (iblk0 V c 1 t))
          (outsAt0 V c (t.val - 1) (Nat.lt_of_le_of_lt (Nat.sub_le _ _) t.isLt)).2 := by
  by_cases h1 : t.val % 4 = 3
  · rw [outsAt0_C V c t h0 h1]
    dsimp only
    exact soutC0_eq c (grid0.coords t) (ms0_0 t) (hs0_0 t) (ms0_1 t) (hs0_1 t) (ms0_2 t) (hs0_2 t) scM0_0 (Memref.isWhole_whole _) _ _
      (iblk0 V c 0 t) (iblk0 V c 1 t) _
  · rw [outsAt0_B V c t h0 h1]
    dsimp only
    exact soutB0_eq c (grid0.coords t) (ms0_0 t) (hs0_0 t) (ms0_1 t) (hs0_1 t) (ms0_2 t) (hs0_2 t) scM0_0 (Memref.isWhole_whole _) _ _
      (iblk0 V c 0 t) (iblk0 V c 1 t) _

/-- At a last step the output block is left at the accumulator's new contents, clamped at zero. -/
theorem out0_last (c : Dev nD) (t : Fin cfg0.N) (h1 : t.val % 4 = 3) :
    (outsAt0 V c t.val t.isLt).1 = k0_pay3 (outsAt0 V c t.val t.isLt).2 := by
  rw [outsAt0_C V c t (by omega) h1]
  dsimp only
  exact (outC0_eq c (grid0.coords t) (ms0_0 t) (hs0_0 t) (ms0_1 t) (hs0_1 t) (ms0_2 t) (hs0_2 t) scM0_0 (Memref.isWhole_whole _) _ _
      (iblk0 V c 0 t) (iblk0 V c 1 t) _).trans
    (congrArg k0_pay3 (soutC0_eq c (grid0.coords t) (ms0_0 t) (hs0_0 t) (ms0_1 t) (hs0_1 t) (ms0_2 t) (hs0_2 t) scM0_0 (Memref.isWhole_whole _) _ _
      (iblk0 V c 0 t) (iblk0 V c 1 t) _).symm)

end

end Cert.KernelIdeal.Val

end
-- ==== Proof.Spec.lean ====
/-
  The mathematics both programs compute, over the extended reals.

  With A : [8192, 8192], X : [8192, 512], W1 : [512, 256], W2 : [256, 64]:
    H = max (A · (X · W1), 0)            two graph-convolution layers
    E = A · (H · W2)
    q i = Σ_c E(i, c)²                   squared norms of the rows of E
    n i j = 0 − max ((q i + q j) − 2 · Σ_c E(i, c) · E(j, c), 0)      minus the clamped squared distance
    out i j = exp (n i j − max_j n i j) / Σ_j exp (n i j − max_j n i j) + ε          the row softmax, plus ε
  Every matrix product is the plain sum over the contracted index; the two float literals (2 and ε) and −∞ stay
  bit patterns, the same on both sides, and are never evaluated.
-/
import Idealize.ShloMosaic.PureOps.Ideal
import Idealize.ShloMosaic.Lib.ValueIdx

noncomputable section

namespace Cert.Spec

open Idealize.ShloMosaic Idealize.ShloMosaic.ValueIdx

/-- An `[a, b]` matrix of extended reals. -/
abbrev Mat (a b : ℕ) : Type := (⟨2, ![a, b]⟩ : Shape).Idx → EReal

/-- The literal 2. -/
abbrev two : EReal := FloatOps.ofBits (F := Ideal) .f32 0x40000000#32
/-- The literal ε (the float nearest 1e-10). -/
abbrev eps : EReal := FloatOps.ofBits (F := Ideal) .f32 0x2EDBE6FF#32
/-- The literal −∞, the start of a running maximum. -/
abbrev negInf : EReal := FloatOps.ofBits (F := Ideal) .f32 0xFF800000#32

/-- Entry `(r, j)` of the product of an `[a, k]` by a `[k, b]` matrix. -/
def mmAt {a k b : ℕ} (A : Mat a k) (B : Mat k b) (r : Fin a) (j : Fin b) : EReal :=
  ∑ c : Fin k, A (ix2 r c) * B (ix2 c j)

/-- The matrix product. -/
def mm {a k b : ℕ} (A : Mat a k) (B : Mat k b) : Mat a b := fun i => mmAt A B (i 0) (i 1)

/-- The entrywise maximum with zero. -/
def relu {a b : ℕ} (M : Mat a b) : Mat a b := fun i => max (M i) 0

/-- One row of the softmax-plus-ε of a row `n` of 8192 numbers, at column `q`. -/
def rowMax (n : Fin 8192 → EReal) : EReal := (Finset.univ : Finset (Fin 8192)).fold max negInf n
def softrow (n : Fin 8192 → EReal) (q : Fin 8192) : EReal :=
  Ideal.div (Ideal.exp (n q - rowMax n)) (∑ j : Fin 8192, Ideal.exp (n j - rowMax n)) + eps

/-- The squared norm of row `i` of `E`. -/
def sqn (E : Mat 8192 64) (i : Fin 8192) : EReal := ∑ c : Fin 64, E (ix2 i c) * E (ix2 i c)
/-- The inner product of rows `i` and `j` of `E`. -/
def score (E : Mat 8192 64) (i j : Fin 8192) : EReal := ∑ c : Fin 64, E (ix2 i c) * E (ix2 j c)
/-- Minus the clamped squared distance between rows `i` and `j`. -/
def negDist (E : Mat 8192 64) (i j : Fin 8192) : EReal := 0 - max ((sqn E i + sqn E j) - two * score E i j) 0

/-- The result from the embedding `E`. -/
def out (E : Mat 8192 64) : Mat 8192 8192 := fun i => softrow (negDist E (i 0)) (i 1)

/-- The hidden layer and the embedding. -/
def hidden (A : Mat 8192 8192) (X : Mat 8192 512) (W1 : Mat 512 256) : Mat 8192 256 := relu (mm A (mm X W1))
def emb (A : Mat 8192 8192) (X : Mat 8192 512) (W1 : Mat 512 256) (W2 : Mat 256 64) : Mat 8192 64 :=
  mm A (mm (hidden A X W1) W2)

/-- The whole result. -/
def G (A : Mat 8192 8192) (X : Mat 8192 512) (W1 : Mat 512 256) (W2 : Mat 256 64) : Mat 8192 8192 := out (emb A X W1 W2)

theorem mm_apply {a k b : ℕ} (A : Mat a k) (B : Mat k b) (r : Fin a) (j : Fin b) :
    mm A B (ix2 r j) = ∑ c : Fin k, A (ix2 r c) * B (ix2 c j) := rfl

theorem out_apply (E : Mat 8192 64) (i j : Fin 8192) : out E (ix2 i j) = softrow (negDist E i) j := rfl

end Cert.Spec

end
-- ==== Proof.SumBlocks.lean ====
/-
  Splitting a sum over 8192 consecutive indices into four blocks of 2048, in the extended reals.
  Only the commutative-monoid laws of addition are used (0 + x = x and associativity); nothing is assumed finite.
-/
import Idealize.ShloMosaic.PureOps.Ideal

namespace Cert.Spec

/-- The sum of `f` over the `k`-th block of 2048 consecutive naturals. -/
noncomputable def blockSum (f : ℕ → EReal) (k : ℕ) : EReal := ∑ c : Fin 2048, f (2048 * k + c.val)

/-- A block sum as a sum over `Finset.range 2048`. -/
theorem blockSum_eq_range (f : ℕ → EReal) (k : ℕ) :
    blockSum f k = ∑ c ∈ Finset.range 2048, f (2048 * k + c) :=
  Fin.sum_univ_eq_sum_range (fun c => f (2048 * k + c)) 2048

/-- Adding the four block sums, left to right from zero, is the sum over all 8192 indices. -/
theorem sum_four_blocks (f : ℕ → EReal) :
    (((0 + blockSum f 0) + blockSum f 1) + blockSum f 2) + blockSum f 3 = ∑ c : Fin 8192, f c.val := by
  rw [Fin.sum_univ_eq_sum_range (fun c => f c) 8192]
  have h8 : Finset.range 8192 = Finset.range (2048 + 2048 + 2048 + 2048) := rfl
  rw [h8, Finset.sum_range_add, Finset.sum_range_add, Finset.sum_range_add, zero_add,
    blockSum_eq_range, blockSum_eq_range, blockSum_eq_range, blockSum_eq_range]
  refine congrArg₂ (· + ·) (congrArg₂ (· + ·) (congrArg₂ (· + ·) ?_ ?_) ?_) ?_ <;>
    exact Finset.sum_congr rfl (fun x _ => congrArg f (by omega))

end Cert.Spec
-- ==== Proof.ValAcc.lean ====
/-
  The running sum of a blocked matrix product, in the extended reals.

  Entry (R, j) of the product of an [8192, 8192] matrix A by an [8192, b] matrix B is the sum over the 8192 contracted
  indices n of A(R, n) · B(n, j). A blocked kernel forms it in four steps of 2048 indices each, adding each step's
  partial sum to a running value that starts at zero: after step k the running value is
  (((0 + s₀) + s₁) + … + s_k), with s_k the sum over the k-th block. After the fourth step this is the whole sum.
-/
import proofs.«111755_j39453569581320_2_alg».proof.Proof.Spec
import proofs.«111755_j39453569581320_2_alg».proof.Proof.SumBlocks

noncomputable section

namespace Cert.Spec

open Idealize.ShloMosaic Idealize.ShloMosaic.ValueIdx

/-- The products along the contracted index as a function of a natural number (zero past the last index). -/
def term {b : ℕ} (A : Mat 8192 8192) (B : Mat 8192 b) (R : Fin 8192) (j : Fin b) (n : ℕ) : EReal :=
  if h : n < 8192 then A (ix2 R ⟨n, h⟩) * B (ix2 ⟨n, h⟩ j) else 0

/-- The running value after step `k`: the block sums added one after another, starting from zero. -/
def accS (f : ℕ → EReal) : ℕ → EReal
  | 0 => 0 + blockSum f 0
  | k + 1 => accS f k + blockSum f (k + 1)

theorem accS_zero (f : ℕ → EReal) : accS f 0 = 0 + blockSum f 0 := rfl
theorem accS_succ (f : ℕ → EReal) (k : ℕ) : accS f (k + 1) = accS f k + blockSum f (k + 1) := rfl

/-- After the fourth step the running value is the sum over all 8192 indices. -/
theorem accS_three (f : ℕ → EReal) : accS f 3 = ∑ c : Fin 8192, f c.val :=
  sum_four_blocks f

/-- The sum of the products over all indices is the entry of the matrix product. -/
theorem sum_term {b : ℕ} (A : Mat 8192 8192) (B : Mat 8192 b) (R : Fin 8192) (j : Fin b) :
    ∑ c : Fin 8192, term A B R j c.val = mm A B (ix2 R j) := by
  rw [mm_apply]
  refine Finset.sum_congr rfl fun c _ => ?_
  unfold term
  rw [dif_pos c.isLt]

/-- One step's sum of products, from the step's blocks: if the left block's row `r` is row `R` of `A` at the
    step's 2048 columns and the right block is the matching 2048 rows of `B`, the step adds the `k`-th block sum. -/
theorem step_sum {b : ℕ} (A : Mat 8192 8192) (B : Mat 8192 b) (R : Fin 8192) (j : Fin b) (k : ℕ) (hk : k < 4)
    (x : Fin 2048 → EReal) (y : Fin 2048 → EReal)
    (hx : ∀ cc : Fin 2048, ∀ h : 2048 * k + cc.val < 8192, x cc = A (ix2 R ⟨2048 * k + cc.val, h⟩))
    (hy : ∀ cc : Fin 2048, ∀ h : 2048 * k + cc.val < 8192, y cc = B (ix2 ⟨2048 * k + cc.val, h⟩ j)) :
    ∑ cc : Fin 2048, x cc * y cc = blockSum (term A B R j) k := by
  unfold blockSum
  refine Finset.sum_congr rfl fun cc _ => ?_
  have hlt : 2048 * k + cc.val < 8192 := by have := cc.isLt; omega
  unfold term
  rw [dif_pos hlt, hx cc hlt, hy cc hlt]

end Cert.Spec

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.PayMM.lean ====
/-
  The arithmetic of the two matrix-product kernels, read at one entry, over the extended reals.

  Each kernel keeps a running block of partial products: it is filled with zeros at the first step, at every step
  the product of the current block of the left matrix by the matching slice of the right matrix is added to it, and
  (first kernel only) the maximum with zero is taken at the last step. Read at entry (r, j):
    the fill is 0;
    a step adds Σ_c x(r, c) · b(c, j) to the entry (the change of float format before the product is the identity
    on extended reals, and the product accumulated into zeros is the plain sum over the contracted index);
    the last step is max(v(r, j), 0).
-/
import proofs.«111755_j39453569581320_2_alg».proof.Proof.Gen.KernelIdeal.Skeleton
import proofs.«111755_j39453569581320_2_alg».proof.Proof.Spec
import proofs.«111755_j39453569581320_2_alg».proof.Proof.LibPlainMatmul
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The zero fill of the first kernel's running block, at any entry. -/
theorem pay0_init (r : Fin 1024) (j : Fin 256) : k0_pay1 (F := Ideal) (ix2 r j) = 0 := by
  show shapeCast S1024x256 (broadcast S1024x256 (Scalar.ofBits (F := Ideal) .f32 0x00000000#32))
    Facts₀.shapeCasts_S1024x256_S1024x256 (ix2 r j) = 0
  rw [shapeCast_self]
  exact Ideal.ofBits_zero_f32

/-- One step of the first kernel: the entry plus the sum of products over the 2048 contracted coordinates. -/
theorem pay0_acc (x : Vec Ideal S1024x2048 .f32) (b : Vec Ideal S2048x256 .bf16) (acc : Vec Ideal S1024x256 .f32)
    (r : Fin 1024) (j : Fin 256) :
    k0_pay2 x b acc (ix2 r j) = acc (ix2 r j) + ∑ c : Fin 2048, x (ix2 r c) * b (ix2 c j) := by
  show shapeCast S1024x256 (addf acc (matmul (F := Ideal) (φ₁ := .bf16) (φ₂ := .bf16) dot_S1024x2048_S2048x256_S1024x256_1_0_0_1_n_n none
      (truncf .bf16 x Facts₀.bitsLt_bf16_f32) (shapeCast S2048x256 (b : FVec Ideal S2048x256 .bf16) Facts₀.shapeCasts_S2048x256_S2048x256)
      (constant S1024x256 .f32 0x00000000#32))) Facts₀.shapeCasts_S1024x256_S1024x256 (ix2 r j) = _
  rw [shapeCast_self, shapeCast_self, addf_apply]
  refine congrArg (acc (ix2 r j) + ·) ?_
  exact matmul_plain_zero_apply (m := 1024) (k := 2048) (n := 256)
    Facts₀.dot_S1024x2048_S2048x256_S1024x256_1_0_0_1_n_n_wf none (truncf .bf16 x Facts₀.bitsLt_bf16_f32) b r j

/-- The last step of the first kernel: the maximum with zero. -/
theorem pay0_fin (v : Vec Ideal S1024x256 .f32) (r : Fin 1024) (j : Fin 256) :
    k0_pay3 v (ix2 r j) = max (v (ix2 r j)) 0 := by
  show max (v (ix2 r j)) (Ideal.ofBits .f32 0x00000000#32) = _
  rw [Ideal.ofBits_zero_f32]

/-- The zero fill of the second kernel's running block, at any entry. -/
theorem pay1_init (r : Fin 1024) (j : Fin 64) : k1_pay1 (F := Ideal) (ix2 r j) = 0 := by
  show shapeCast S1024x64 (broadcast S1024x64 (Scalar.ofBits (F := Ideal) .f32 0x00000000#32))
    Facts₀.shapeCasts_S1024x64_S1024x64 (ix2 r j) = 0
  rw [shapeCast_self]
  exact Ideal.ofBits_zero_f32

/-- One step of the second kernel: the entry plus the sum of products over the 2048 contracted coordinates. -/
theorem pay1_acc (x : Vec Ideal S1024x2048 .f32) (b : Vec Ideal S2048x64 .bf16) (acc : Vec Ideal S1024x64 .f32)
    (r : Fin 1024) (j : Fin 64) :
    k1_pay2 x b acc (ix2 r j) = acc (ix2 r j) + ∑ c : Fin 2048, x (ix2 r c) * b (ix2 c j) := by
  show shapeCast S1024x64 (addf acc (matmul (F := Ideal) (φ₁ := .bf16) (φ₂ := .bf16) dot_S1024x2048_S2048x64_S1024x64_1_0_0_1_n_n none
      (truncf .bf16 x Facts₀.bitsLt_bf16_f32) (shapeCast S2048x64 (b : FVec Ideal S2048x64 .bf16) Facts₀.shapeCasts_S2048x64_S2048x64)
      (constant S1024x64 .f32 0x00000000#32))) Facts₀.shapeCasts_S1024x64_S1024x64 (ix2 r j) = _
  rw [shapeCast_self, shapeCast_self, addf_apply]
  refine congrArg (acc (ix2 r j) + ·) ?_
  exact matmul_plain_zero_apply (m := 1024) (k := 2048) (n := 64)
    Facts₀.dot_S1024x2048_S2048x64_S1024x64_1_0_0_1_n_n_wf none (truncf .bf16 x Facts₀.bitsLt_bf16_f32) b r j

end Cert.KernelIdeal.Pay

end
-- ==== Proof.ValRegion0.lean ====
/-
  Region 0 (the first blocked matrix product): the array it leaves, over the extended reals.

  With A the left matrix [8192, 8192] and B the right matrix [8192, 256] as the region finds them, the accumulator after
  point t = 4·i + k holds at (r, j) the running sum (((0 + s₀) + … ) + s_k) of the block sums
  s_k' = Σ_{c < 2048} A(1024·i + r, 2048·k' + c) · B(2048·k' + c, j): at k = 0 the step's sum is added to the zero fill,
  at a later step to what the point before (same row tile) left. At k = 3 this is the whole sum over the 8192
  contracted indices, entry (1024·i + r, j) of A · B, and the point writes it, clamped at zero, into rows 1024·i … of the output.
  Row R of the output is written by point 4·(R / 1024) + 3, so the points' blocks cover the array, which ends as
  max(A · B, 0).
-/
import proofs.«111755_j39453569581320_2_alg».proof.Proof.ValPieces0
import proofs.«111755_j39453569581320_2_alg».proof.Proof.ValAcc
import proofs.«111755_j39453569581320_2_alg».proof.Proof.PayMM
import proofs.«111755_j39453569581320_2_alg».proof.Proof.SumBlocks
import proofs.«111755_j39453569581320_2_alg».proof.Proof.Spec
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat)

section
variable (V : (c : Dev nD) → (b : Ref sig .tc) → Buf (Elt Ideal) ((c : Thread nD τ).loc b)) (c : Dev nD)

/-- The left matrix as the region finds it. -/
abbrev A0 : Cert.Spec.Mat 8192 8192 := V c main_arg0
/-- The right matrix as the region finds it. -/
abbrev B0 : Cert.Spec.Mat 8192 256 := V c main_v1

/-- The point's block of the left matrix, and the rows of the right matrix its step takes. -/
abbrev lhs0 (t : Fin cfg0.N) : Vec Ideal S1024x2048 .f32 := iblk0 V c 0 t
abbrev rhs0 (t : Fin cfg0.N) : Vec Ideal S2048x256 .bf16 := slice0 (grid0.coords t) (iblk0 V c 1 t)

/-- The sum of products a point adds: the block sum of its contraction step, for the row of A its row tile holds. -/
theorem step0 (t : Fin cfg0.N) (r : Fin 1024) (j : Fin 256) (R : Fin 8192) (hR : R.val = 1024 * (t.val / 4) + r.val) :
    ∑ cc : Fin 2048, lhs0 V c t (ix2 r cc) * rhs0 V c t (ix2 cc j)
      = Cert.Spec.blockSum (Cert.Spec.term (A0 V c) (B0 V c) R j) (t.val % 4) :=
  Cert.Spec.step_sum (A0 V c) (B0 V c) R j (t.val % 4) (Nat.mod_lt _ (by decide))
    (fun cc => lhs0 V c t (ix2 r cc)) (fun cc => rhs0 V c t (ix2 cc j))
    (fun cc h => iblk0_0_apply V c t r cc R ⟨_, h⟩ hR rfl)
    (fun cc h => (slice0_apply (grid0.coords t) (iblk0 V c 1 t) cc j ⟨_, h⟩
        (by rw [(idx0 t).2.2.2.2.2.2])).trans (iblk0_1_apply V c t ⟨_, h⟩ j))

/-- THE ACCUMULATOR after the point at position n, at (r, j): the running sum of the block sums up to the point's step. -/
theorem acc0_at : ∀ (n : ℕ) (hn : n < cfg0.N) (r : Fin 1024) (j : Fin 256) (R : Fin 8192), R.val = 1024 * (n / 4) + r.val →
    ((outsAt0 V c n hn).2 : Vec Ideal S1024x256 .f32) (ix2 r j)
      = Cert.Spec.accS (Cert.Spec.term (A0 V c) (B0 V c) R j) (n % 4) := by
  intro n
  induction n using Nat.strong_induction_on with
  | _ n ih =>
    intro hn r j R hR
    by_cases h0 : n % 4 = 0
    · refine (congrFun (acc0_first V c ⟨n, hn⟩ h0) (ix2 r j)).trans ?_
      refine (Pay.pay0_acc _ _ _ r j).trans ?_
      rw [Pay.pay0_init, h0, Cert.Spec.accS_zero]
      refine congrArg (0 + ·) ?_
      have s := step0 V c ⟨n, hn⟩ r j R hR
      rw [show (⟨n, hn⟩ : Fin cfg0.N).val % 4 = 0 from h0] at s
      exact s
    · refine (congrFun (acc0_next V c ⟨n, hn⟩ h0) (ix2 r j)).trans ?_
      refine (Pay.pay0_acc _ _ _ r j).trans ?_
      have hp := ih (n - 1) (by omega) (Nat.lt_of_le_of_lt (Nat.sub_le _ _) hn) r j R (by omega)
      refine (congrArg₂ (· + ·) hp (step0 V c ⟨n, hn⟩ r j R hR)).trans ?_
      show Cert.Spec.accS _ ((n - 1) % 4) + Cert.Spec.blockSum _ (n % 4) = Cert.Spec.accS _ (n % 4)
      obtain ⟨k, hk⟩ : ∃ k, n % 4 = k + 1 := ⟨n % 4 - 1, by omega⟩
      rw [hk, show (n - 1) % 4 = k by omega, Cert.Spec.accS_succ]

/-- What a point that writes its block back writes: its block of max(A · B, 0). -/
theorem flushed0_eq (t : Fin cfg0.N) (hf : (cfg0.win 2).flush t = true) :
    (dat0 (F := Ideal) V c).flushed 2 t
      = ((cfg0.win 2).blk t).view.read (Elt Ideal) (Cert.Spec.relu (Cert.Spec.mm (A0 V c) (B0 V c))) := by
  have h3 : t.val % 4 = 3 := (flush0_2 t).mp hf
  have hN : t.val < 32 := lt_of_lt_of_eq t.isLt N_0
  obtain ⟨-, -, -, -, e0, e1, -⟩ := idx0 t
  show (cfg0.win 2).cut (grid0.coords t) ((dat0 V c).after 2 t) = _
  rw [after0_2, out0_last V c t h3]
  refine funext fun (y : S1024x256.Idx) => ?_
  obtain ⟨r, j, rfl⟩ : ∃ (r : Fin 1024) (j : Fin 256), y = ix2 r j := ⟨y 0, y 1, eq_ix2 y⟩
  have hRlt : 1024 * (t.val / 4) + r.val < 8192 := by have := r.isLt; omega
  have hx : (cfg0.win 2).xinj (grid0.coords t) (ix2 r j) = ix2 r j :=
    funext fun a => by match a with | ⟨0, _⟩ => rfl | ⟨1, _⟩ => rfl
  have hemb : ((cfg0.win 2).blk t).view.emb (ix2 r j) = ix2 (⟨_, hRlt⟩ : Fin 8192) j := by
    funext a; apply Fin.ext
    match a with
    | ⟨0, _⟩ => show win0_2.index t 0 * 1024 + 1 * r.val = 1024 * (t.val / 4) + r.val; rw [e0]; omega
    | ⟨1, _⟩ => show win0_2.index t 1 * 256 + 1 * j.val = j.val; rw [e1]; omega
  rw [View.read_apply]
  show k0_pay3 (outsAt0 V c t.val t.isLt).2 ((cfg0.win 2).xinj (grid0.coords t) (ix2 r j))
    = (Cert.Spec.relu (Cert.Spec.mm (A0 V c) (B0 V c))) (((cfg0.win 2).blk t).view.emb (ix2 r j))
  rw [hx, hemb, Pay.pay0_fin, acc0_at V c t.val t.isLt r j ⟨_, hRlt⟩ rfl, h3, Cert.Spec.accS_three, Cert.Spec.sum_term]
  rfl

/-- THE ARRAY the region leaves: the matrix product clamped at zero. -/
theorem final0 : (dat0 (F := Ideal) V c).arrAt 2 cfg0.N = Cert.Spec.relu (Cert.Spec.mm (V c main_arg0) (V c main_v1)) :=
  (dat0 V c).arrAt_eq_of_cover 2 _ (flushed0_eq V c) fun i => by
    have h0 : (i 0 : Nat) < 8192 := (i 0).isLt
    have h1 : (i 1 : Nat) < 256 := (i 1).isLt
    have hlt : 4 * ((i 0 : Nat) / 1024) + 3 < cfg0.N := by show _ < grid0.N; rw [N_0]; omega
    refine ⟨⟨_, hlt⟩, (flush0_2 _).mpr (by show (4 * ((i 0 : Nat) / 1024) + 3) % 4 = 3; omega), ?_⟩
    obtain ⟨-, -, -, -, e0, e1, -⟩ := idx0 ⟨_, hlt⟩
    show i ∈ ((View.whole main_v2).slice (win0_2.rect ⟨_, hlt⟩)).set
    rw [View.set_slice_whole, Rect.mem_set_unit]
    intro a
    match a with
    | ⟨0, _⟩ =>
      show win0_2.index ⟨_, hlt⟩ 0 * 1024 ≤ (i 0 : Nat) ∧ (i 0 : Nat) < win0_2.index ⟨_, hlt⟩ 0 * 1024 + 1024
      rw [e0]
      show (4 * ((i 0 : Nat) / 1024) + 3) / 4 * 1024 ≤ (i 0 : Nat) ∧ (i 0 : Nat) < (4 * ((i 0 : Nat) / 1024) + 3) / 4 * 1024 + 1024
      omega
    | ⟨1, _⟩ =>
      show win0_2.index ⟨_, hlt⟩ 1 * 256 ≤ (i 1 : Nat) ∧ (i 1 : Nat) < win0_2.index ⟨_, hlt⟩ 1 * 256 + 256
      rw [e1]; omega

end

end Cert.KernelIdeal.Val

end
-- ==== Proof.ValPieces1.lean ====
/-
  Region 1 (the second blocked matrix product): what each case of the body leaves, as the kernel's arithmetic applied to
  the point's blocks, and the blocks themselves as entries of the arrays.

  A point t = 4·i + k of the 8 × 4 grid works on rows 1024·i … of the left matrix and columns 2048·k … of it (its
  block of window 0), on the whole right matrix (window 1), of which the body takes the rows 2048·k …, and on the
  accumulator. Each case stores one whole block: the arithmetic of the step applied to these. Every statement is for
  any float instance; nothing is evaluated.
-/
import proofs.«111755_j39453569581320_2_alg».proof.Proof.FrRegion1
import Idealize.ShloMosaic.Lib.ValueIdx
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

theorem hz1 : (![0, 0] : Fin 2 → Nat) = fun _ => 0 := funext fun a => by fin_cases a <;> rfl

/-- The rows of the right matrix that the step multiplies by: 2048 rows from the step's offset. -/
def slice1 (i : grid1.Coords) (x1 : Vec F S8192x64 .bf16) : Vec F S2048x64 .bf16 :=
  View.ld x1 (Rect.unit (s := S8192x64) (k1_off1 i) S2048x64.size (Facts₀.k1_off1_inb i))

/-! ## What each case leaves -/

/-- The first step leaves in the accumulator the step's product added to the zero fill. -/
theorem soutA1_eq (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : cond1_0 i) (hc1 : ¬cond1_1 i) (x0 : Vec F S1024x2048 .f32) (x1 : Vec F S8192x64 .bf16) :
    sout1_A_0 c i arg2 harg2 arg3 harg3 arg4 harg4 arg5 harg5 hc0 hc1 x0 x1 = k1_pay2 x0 (slice1 i x1) k1_pay1 := by
  unfold sout1_A_0
  rw [View.read_writes_eq_canon _ _ _ (scover1_A_0 c i arg2 harg2 arg3 harg3 arg4 harg4 arg5 harg5 hc0 hc1 x0 x1)]
  unfold kernelRun1_A
  dsimp only
  try sl_unfold_run_names
  rw [View.canon_cons_unit_zero hz1, View.readCov_unit_zero (S := S1024x64) _ hz1]
  simp only [View.readAt_eq_ld, harg2.read_unread, harg3.read_unread, View.ld_unit_zero (S := S1024x2048) hz1]
  rfl

/-- A middle step leaves in the accumulator the step's product added to what it held. -/
theorem soutB1_eq (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : ¬cond1_1 i) (x0 : Vec F S1024x2048 .f32) (x1 : Vec F S8192x64 .bf16) (xs0 : Vec F S1024x64 .f32) :
    sout1_B_0 c i arg2 harg2 arg3 harg3 arg4 harg4 arg5 harg5 hc0 hc1 x0 x1 xs0 = k1_pay2 x0 (slice1 i x1) xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  try sl_unfold_run_names
  rw [View.canon_unit_zero hz1]
  simp only [View.readAt_eq_ld, harg2.read_unread, harg3.read_unread, harg5.read_unread, View.ld_unit_zero (S := S1024x2048) hz1, View.ld_unit_zero (S := S1024x64) hz1]
  rfl

/-- So does the last step … -/
theorem soutC1_eq (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i) (x0 : Vec F S1024x2048 .f32) (x1 : Vec F S8192x64 .bf16) (xs0 : Vec F S1024x64 .f32) :
    sout1_C_0 c i arg2 harg2 arg3 harg3 arg4 harg4 arg5 harg5 hc0 hc1 x0 x1 xs0 = k1_pay2 x0 (slice1 i x1) xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  try sl_unfold_run_names
  rw [View.canon_unit_zero hz1]
  simp only [View.readAt_eq_ld, harg2.read_unread, harg3.read_unread, harg5.read_unread, View.ld_unit_zero (S := S1024x2048) hz1, View.ld_unit_zero (S := S1024x64) hz1]
  rfl

/-- … which also writes the accumulator's new contents into the output block. -/
theorem outC1_eq (c : Dev nD) (i : grid1.Coords) (arg2 : Memref sig .tc .vmem S1024x2048 .f32) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1024x64 .f32) (harg5 : arg5.IsWhole) (hc0 : ¬cond1_0 i) (hc1 : cond1_1 i) (x0 : Vec F S1024x2048 .f32) (x1 : Vec F S8192x64 .bf16) (xs0 : Vec F S1024x64 .f32) :
    out1_C_2 c i arg2 harg2 arg3 harg3 arg4 harg4 arg5 harg5 hc0 hc1 x0 x1 xs0 = k1_pay2 x0 (slice1 i x1) xs0 := by
  unfold out1_C_2
  rw [View.read_writes_eq_canon _ _ _ (cover1_C_2 c i arg2 harg2 arg3 harg3 arg4 harg4 arg5 harg5 hc0 hc1 x0 x1 xs0)]
  unfold kernelRun1_C
  dsimp only
  try sl_unfold_run_names
  rw [View.canon_unit_zero hz1, View.readCov_unit_zero (S := S1024x64) _ hz1]
  simp only [View.readAt_eq_ld, harg2.read_unread, harg3.read_unread, harg5.read_unread, View.ld_unit_zero (S := S1024x2048) hz1, View.ld_unit_zero (S := S1024x64) hz1]
  rfl

/-! ## The blocks as entries of the arrays -/

/-- The block indices and the contraction step at each point, decided over the grid. -/
theorem idx1 : ∀ t : Fin cfg1.N, win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = t.val / 4 ∧ win1_2.index t (1 : Fin 2) = 0
    ∧ (grid1.coords t (1 : Fin 2)).val = t.val % 4 :=
  (by decide +kernel : ∀ t : Fin grid1.N, win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = t.val / 4 ∧ win1_2.index t (1 : Fin 2) = 0
    ∧ (grid1.coords t (1 : Fin 2)).val = t.val % 4)

/-- The step's rows of the right matrix, at an entry. -/
theorem slice1_apply (i : grid1.Coords) (x1 : Vec F S8192x64 .bf16) (cc : Fin 2048) (j : Fin 64) (N : Fin 8192)
    (hN : N.val = 2048 * (i (1 : Fin 2)).val + cc.val) : slice1 i x1 (ix2 cc j) = x1 (ix2 N j) := by
  unfold slice1
  show x1 _ = x1 _
  congr 1
  funext a
  apply Fin.ext
  match a with
  | ⟨0, _⟩ => show k1_off1 i 0 + 1 * cc.val = N.val; rw [k1_off1_eq i, hN]; show 2048 * (i 1).val + 1 * cc.val = _; omega
  | ⟨1, _⟩ => show k1_off1 i 1 + 1 * j.val = j.val; rw [k1_off1_eq i]; show 0 + 1 * j.val = _; omega

section
variable (V : (c : Dev nD) → (b : Ref sig .tc) → Buf (Elt F) ((c : Thread nD τ).loc b))

/-- Window 0's block at point t is rows 1024·(t/4) … and columns 2048·(t%4) … of the left matrix. -/
theorem iblk1_0_apply (c : Dev nD) (t : Fin cfg1.N) (r : Fin 1024) (cc : Fin 2048) (R C : Fin 8192)
    (hR : R.val = 1024 * (t.val / 4) + r.val) (hC : C.val = 2048 * (t.val % 4) + cc.val) :
    (iblk1 V c 0 t : Vec F S1024x2048 .f32) (ix2 r cc) = (V c main_arg0 : S8192x8192.Idx → Elt F .f32) (ix2 R C) := by
  obtain ⟨e0, e1, -⟩ := idx1 t
  unfold iblk1
  rw [View.read_apply]
  show V c main_arg0 _ = V c main_arg0 _
  congr 1
  funext a
  apply Fin.ext
  match a with
  | ⟨0, _⟩ => show win1_0.index t 0 * 1024 + 1 * r.val = R.val; rw [e0, hR]; omega
  | ⟨1, _⟩ => show win1_0.index t 1 * 2048 + 1 * cc.val = C.val; rw [e1, hC]; omega

/-- Window 1's block at every point is the whole right matrix. -/
theorem iblk1_1_apply (c : Dev nD) (t : Fin cfg1.N) (N : Fin 8192) (j : Fin 64) :
    (iblk1 V c 1 t : Vec F S8192x64 .bf16) (ix2 N j) = (V c main_v4 : S8192x64.Idx → Elt F .bf16) (ix2 N j) := by
  obtain ⟨-, -, e0, e1, -⟩ := idx1 t
  unfold iblk1
  rw [View.read_apply]
  show V c main_v4 _ = V c main_v4 _
  congr 1
  funext a
  apply Fin.ext
  match a with
  | ⟨0, _⟩ => show win1_1.index t 0 * 8192 + 1 * N.val = N.val; rw [e0]; omega
  | ⟨1, _⟩ => show win1_1.index t 1 * 64 + 1 * j.val = j.val; rw [e1]; omega

/-! ## The accumulator from point to point -/

/-- At a first step the accumulator is left at the step's product added to the zero fill. -/
theorem acc1_first (c : Dev nD) (t : Fin cfg1.N) (h0 : t.val % 4 = 0) :
    (outsAt1 V c t.val t.isLt).2
      = k1_pay2 (iblk1 V c 0 t) (slice1 (grid1.coords t) (iblk1 V c 1 t)) k1_pay1 := by
  rw [outsAt1_A V c t h0 (by omega)]
  dsimp only
  exact soutA1_eq c (grid1.coords t) (ms1_0 t) (hs1_0 t) (ms1_1 t) (hs1_1 t) (ms1_2 t) (hs1_2 t) scM1_0 (Memref.isWhole_whole _) _ _
    (iblk1 V c 0 t) (iblk1 V c 1 t)

/-- At any other step it is left at the step's product added to what the point before left. -/
theorem acc1_next (c : Dev nD) (t : Fin cfg1.N) (h0 : ¬t.val % 4 = 0) :
    (outsAt1 V c t.val t.isLt).2
      = k1_pay2 (iblk1 V c 0 t) (slice1 (grid1.coords t) (iblk1 V c 1 t))
          (outsAt1 V c (t.val - 1) (Nat.lt_of_le_of_lt (Nat.sub_le _ _) t.isLt)).2 := by
  by_cases h1 : t.val % 4 = 3
  · rw [outsAt1_C V c t h0 h1]
    dsimp only
    exact soutC1_eq c (grid1.coords t) (ms1_0 t) (hs1_0 t) (ms1_1 t) (hs1_1 t) (ms1_2 t) (hs1_2 t) scM1_0 (Memref.isWhole_whole _) _ _
      (iblk1 V c 0 t) (iblk1 V c 1 t) _
  · rw [outsAt1_B V c t h0 h1]
    dsimp only
    exact soutB1_eq c (grid1.coords t) (ms1_0 t) (hs1_0 t) (ms1_1 t) (hs1_1 t) (ms1_2 t) (hs1_2 t) scM1_0 (Memref.isWhole_whole _) _ _
      (iblk1 V c 0 t) (iblk1 V c 1 t) _

/-- At a last step the output block is left at the accumulator's new contents. -/
theorem out1_last (c : Dev nD) (t : Fin cfg1.N) (h1 : t.val % 4 = 3) :
    (outsAt1 V c t.val t.isLt).1 = (outsAt1 V c t.val t.isLt).2 := by
  rw [outsAt1_C V c t (by omega) h1]
  dsimp only
  exact (outC1_eq c (grid1.coords t) (ms1_0 t) (hs1_0 t) (ms1_1 t) (hs1_1 t) (ms1_2 t) (hs1_2 t) scM1_0 (Memref.isWhole_whole _) _ _
      (iblk1 V c 0 t) (iblk1 V c 1 t) _).trans
    ((soutC1_eq c (grid1.coords t) (ms1_0 t) (hs1_0 t) (ms1_1 t) (hs1_1 t) (ms1_2 t) (hs1_2 t) scM1_0 (Memref.isWhole_whole _) _ _
      (iblk1 V c 0 t) (iblk1 V c 1 t) _).symm)

end

end Cert.KernelIdeal.Val

end
-- ==== Proof.ValRegion1.lean ====
/-
  Region 1 (the second blocked matrix product): the array it leaves, over the extended reals.

  With A the left matrix [8192, 8192] and B the right matrix [8192, 64] as the region finds them, the accumulator after
  point t = 4·i + k holds at (r, j) the running sum (((0 + s₀) + … ) + s_k) of the block sums
  s_k' = Σ_{c < 2048} A(1024·i + r, 2048·k' + c) · B(2048·k' + c, j): at k = 0 the step's sum is added to the zero fill,
  at a later step to what the point before (same row tile) left. At k = 3 this is the whole sum over the 8192
  contracted indices, entry (1024·i + r, j) of A · B, and the point writes it into rows 1024·i … of the output.
  Row R of the output is written by point 4·(R / 1024) + 3, so the points' blocks cover the array, which ends as A · B.
-/
import proofs.«111755_j39453569581320_2_alg».proof.Proof.ValPieces1
import proofs.«111755_j39453569581320_2_alg».proof.Proof.ValAcc
import proofs.«111755_j39453569581320_2_alg».proof.Proof.PayMM
import proofs.«111755_j39453569581320_2_alg».proof.Proof.SumBlocks
import proofs.«111755_j39453569581320_2_alg».proof.Proof.Spec
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat)

section
variable (V : (c : Dev nD) → (b : Ref sig .tc) → Buf (Elt Ideal) ((c : Thread nD τ).loc b)) (c : Dev nD)

/-- The left matrix as the region finds it. -/
abbrev A1 : Cert.Spec.Mat 8192 8192 := V c main_arg0
/-- The right matrix as the region finds it. -/
abbrev B1 : Cert.Spec.Mat 8192 64 := V c main_v4

/-- The point's block of the left matrix, and the rows of the right matrix its step takes. -/
abbrev lhs1 (t : Fin cfg1.N) : Vec Ideal S1024x2048 .f32 := iblk1 V c 0 t
abbrev rhs1 (t : Fin cfg1.N) : Vec Ideal S2048x64 .bf16 := slice1 (grid1.coords t) (iblk1 V c 1 t)

/-- The sum of products a point adds: the block sum of its contraction step, for the row of A its row tile holds. -/
theorem step1 (t : Fin cfg1.N) (r : Fin 1024) (j : Fin 64) (R : Fin 8192) (hR : R.val = 1024 * (t.val / 4) + r.val) :
    ∑ cc : Fin 2048, lhs1 V c t (ix2 r cc) * rhs1 V c t (ix2 cc j)
      = Cert.Spec.blockSum (Cert.Spec.term (A1 V c) (B1 V c) R j) (t.val % 4) :=
  Cert.Spec.step_sum (A1 V c) (B1 V c) R j (t.val % 4) (Nat.mod_lt _ (by decide))
    (fun cc => lhs1 V c t (ix2 r cc)) (fun cc => rhs1 V c t (ix2 cc j))
    (fun cc h => iblk1_0_apply V c t r cc R ⟨_, h⟩ hR rfl)
    (fun cc h => (slice1_apply (grid1.coords t) (iblk1 V c 1 t) cc j ⟨_, h⟩
        (by rw [(idx1 t).2.2.2.2.2.2])).trans (iblk1_1_apply V c t ⟨_, h⟩ j))

/-- THE ACCUMULATOR after the point at position n, at (r, j): the running sum of the block sums up to the point's step. -/
theorem acc1_at : ∀ (n : ℕ) (hn : n < cfg1.N) (r : Fin 1024) (j : Fin 64) (R : Fin 8192), R.val = 1024 * (n / 4) + r.val →
    ((outsAt1 V c n hn).2 : Vec Ideal S1024x64 .f32) (ix2 r j)
      = Cert.Spec.accS (Cert.Spec.term (A1 V c) (B1 V c) R j) (n % 4) := by
  intro n
  induction n using Nat.strong_induction_on with
  | _ n ih =>
    intro hn r j R hR
    by_cases h0 : n % 4 = 0
    · refine (congrFun (acc1_first V c ⟨n, hn⟩ h0) (ix2 r j)).trans ?_
      refine (Pay.pay1_acc _ _ _ r j).trans ?_
      rw [Pay.pay1_init, h0, Cert.Spec.accS_zero]
      refine congrArg (0 + ·) ?_
      have s := step1 V c ⟨n, hn⟩ r j R hR
      rw [show (⟨n, hn⟩ : Fin cfg1.N).val % 4 = 0 from h0] at s
      exact s
    · refine (congrFun (acc1_next V c ⟨n, hn⟩ h0) (ix2 r j)).trans ?_
      refine (Pay.pay1_acc _ _ _ r j).trans ?_
      have hp := ih (n - 1) (by omega) (Nat.lt_of_le_of_lt (Nat.sub_le _ _) hn) r j R (by omega)
      refine (congrArg₂ (· + ·) hp (step1 V c ⟨n, hn⟩ r j R hR)).trans ?_
      show Cert.Spec.accS _ ((n - 1) % 4) + Cert.Spec.blockSum _ (n % 4) = Cert.Spec.accS _ (n % 4)
      obtain ⟨k, hk⟩ : ∃ k, n % 4 = k + 1 := ⟨n % 4 - 1, by omega⟩
      rw [hk, show (n - 1) % 4 = k by omega, Cert.Spec.accS_succ]

/-- What a point that writes its block back writes: its block of A · B. -/
theorem flushed1_eq (t : Fin cfg1.N) (hf : (cfg1.win 2).flush t = true) :
    (dat1 (F := Ideal) V c).flushed 2 t
      = ((cfg1.win 2).blk t).view.read (Elt Ideal) (Cert.Spec.mm (A1 V c) (B1 V c)) := by
  have h3 : t.val % 4 = 3 := (flush1_2 t).mp hf
  have hN : t.val < 32 := lt_of_lt_of_eq t.isLt N_1
  obtain ⟨-, -, -, -, e0, e1, -⟩ := idx1 t
  show (cfg1.win 2).cut (grid1.coords t) ((dat1 V c).after 2 t) = _
  rw [after1_2, out1_last V c t h3]
  refine funext fun (y : S1024x64.Idx) => ?_
  obtain ⟨r, j, rfl⟩ : ∃ (r : Fin 1024) (j : Fin 64), y = ix2 r j := ⟨y 0, y 1, eq_ix2 y⟩
  have hRlt : 1024 * (t.val / 4) + r.val < 8192 := by have := r.isLt; omega
  have hx : (cfg1.win 2).xinj (grid1.coords t) (ix2 r j) = ix2 r j :=
    funext fun a => by match a with | ⟨0, _⟩ => rfl | ⟨1, _⟩ => rfl
  have hemb : ((cfg1.win 2).blk t).view.emb (ix2 r j) = ix2 (⟨_, hRlt⟩ : Fin 8192) j := by
    funext a; apply Fin.ext
    match a with
    | ⟨0, _⟩ => show win1_2.index t 0 * 1024 + 1 * r.val = 1024 * (t.val / 4) + r.val; rw [e0]; omega
    | ⟨1, _⟩ => show win1_2.index t 1 * 64 + 1 * j.val = j.val; rw [e1]; omega
  rw [View.read_apply]
  show (outsAt1 V c t.val t.isLt).2 ((cfg1.win 2).xinj (grid1.coords t) (ix2 r j))
    = (Cert.Spec.mm (A1 V c) (B1 V c)) (((cfg1.win 2).blk t).view.emb (ix2 r j))
  rw [hx, hemb, acc1_at V c t.val t.isLt r j ⟨_, hRlt⟩ rfl, h3, Cert.Spec.accS_three, Cert.Spec.sum_term]

/-- THE ARRAY the region leaves: the matrix product. -/
theorem final1 : (dat1 (F := Ideal) V c).arrAt 2 cfg1.N = Cert.Spec.mm (V c main_arg0) (V c main_v4) :=
  (dat1 V c).arrAt_eq_of_cover 2 _ (flushed1_eq V c) fun i => by
    have h0 : (i 0 : Nat) < 8192 := (i 0).isLt
    have h1 : (i 1 : Nat) < 64 := (i 1).isLt
    have hlt : 4 * ((i 0 : Nat) / 1024) + 3 < cfg1.N := by show _ < grid1.N; rw [N_1]; omega
    refine ⟨⟨_, hlt⟩, (flush1_2 _).mpr (by show (4 * ((i 0 : Nat) / 1024) + 3) % 4 = 3; omega), ?_⟩
    obtain ⟨-, -, -, -, e0, e1, -⟩ := idx1 ⟨_, hlt⟩
    show i ∈ ((View.whole main_v5).slice (win1_2.rect ⟨_, hlt⟩)).set
    rw [View.set_slice_whole, Rect.mem_set_unit]
    intro a
    match a with
    | ⟨0, _⟩ =>
      show win1_2.index ⟨_, hlt⟩ 0 * 1024 ≤ (i 0 : Nat) ∧ (i 0 : Nat) < win1_2.index ⟨_, hlt⟩ 0 * 1024 + 1024
      rw [e0]
      show (4 * ((i 0 : Nat) / 1024) + 3) / 4 * 1024 ≤ (i 0 : Nat) ∧ (i 0 : Nat) < (4 * ((i 0 : Nat) / 1024) + 3) / 4 * 1024 + 1024
      omega
    | ⟨1, _⟩ =>
      show win1_2.index ⟨_, hlt⟩ 1 * 64 ≤ (i 1 : Nat) ∧ (i 1 : Nat) < win1_2.index ⟨_, hlt⟩ 1 * 64 + 64
      rw [e1]; omega

end

end Cert.KernelIdeal.Val

end
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibLaneMax.lean ====
/-
  The maximum along the rows of a matrix, read at a row.

  Taking the maximum of an [a, b] matrix over its second axis, started from an accumulator word, leaves a vector of
  length a whose entry i is the maximum of that word's value and the b entries of row i — the fold of `max` over the
  row's coordinates. The general statement names the entries through the index "entry i with coordinate k inserted
  on the reduced axis"; for a matrix that index is (i, k). (The companion for a sum is `multiReduction_add_rows_apply`.)
-/
import proofs.«111755_j39453569581320_2_alg».proof.Proof.LibLaneSum

namespace Idealize.ShloMosaic.ValueIdx

open Idealize.ShloMosaic

/-- The maximum of an `[a, b]` matrix over axis 1, at the exact extended reals, read at row `i`: the fold of `max`
    from the accumulator's value over that row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (FloatOps.ofBits (F := Ideal) φ acc) (fun c => src (ix2 i c)) := by
  refine (Ideal.multiReduction_maximumf_single src acc h hφ hacc (ix1 i)).trans ?_
  exact congrArg (fun f => (Finset.univ : Finset (Fin b)).fold max (FloatOps.ofBits (F := Ideal) φ acc) f)
    (funext fun c => congrArg src (reduces_rows_lift h i c))

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.PaySoft.lean ====
/-
  The arithmetic of the distance-and-softmax kernel, read at one entry, over the extended reals.

  From a block e of 128 rows of the embedding, the whole transposed embedding eT, the squared norms of the block's
  rows (a column sc) and of all rows (a row sr), the kernel forms, for row p and column j,
      n(p, j) = 0 − max((sc(p) + sr(j)) − 2 · Σ_c e(p, c) · eT(c, j), 0),
  then along each row the maximum m(p) (a running maximum started at −∞), the exponentials exp(n(p, j) − m(p)), their
  sum s(p), and stores exp(n(p, q) − m(p)) / s(p) + ε. That is the softmax-plus-ε of the row j ↦ n(p, j), at column q.

  The proof names the two halves as functions of whole blocks (`pre`: the clamped distance; `soft`: the row softmax of
  any block), reads `pre` at an entry, and reads `soft` at an entry of a block whose row p is a given function n: the
  row maximum and the row sum are then the maximum and the sum of n by congruence. The literals 2, ε and −∞ stay bit
  patterns; only the zero word is evaluated.
-/
import proofs.«111755_j39453569581320_2_alg».proof.Proof.Gen.KernelIdeal.Skeleton
import proofs.«111755_j39453569581320_2_alg».proof.Proof.Spec
import proofs.«111755_j39453569581320_2_alg».proof.Proof.LibPlainMatmul
import proofs.«111755_j39453569581320_2_alg».proof.Proof.LibLaneSum
import proofs.«111755_j39453569581320_2_alg».proof.Proof.LibLaneMax
import proofs.«111755_j39453569581320_2_alg».proof.Proof.LibColumnCast
import proofs.«111755_j39453569581320_2_alg».proof.Proof.LibColumnBroadcast
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- Minus the clamped squared distance, on whole blocks, as the kernel forms it. -/
def pre (e : FVec Ideal S128x64 .f32) (eT : FVec Ideal S64x8192 .f32) (sc : FVec Ideal S128x1 .f32)
    (sr : FVec Ideal S1x8192 .f32) : FVec Ideal S128x8192 .f32 :=
  subf (broadcast S128x8192 (Scalar.ofBits (F := Ideal) .f32 0x00000000#32))
    (maximumf
      (subf
        (addf (broadcastTo S128x8192 sc Facts₀.broadcasts_S128x1_S128x8192)
          (broadcastTo S128x8192 sr Facts₀.broadcasts_S1x8192_S128x8192))
        (mulf (broadcast S128x8192 (Scalar.ofBits (F := Ideal) .f32 0x40000000#32))
          (matmul (F := Ideal) (φ₁ := .f32) (φ₂ := .f32) dot_S128x64_S64x8192_S128x8192_1_0_0_1_n_n (some .fp32) e eT
            (constant S128x8192 .f32 0x00000000#32))))
      (broadcast S128x8192 (Scalar.ofBits (F := Ideal) .f32 0x00000000#32)))

/-- The maximum of each row of a block, repeated along the row. -/
def rmax (w : FVec Ideal S128x8192 .f32) : FVec Ideal S128x8192 .f32 :=
  broadcastTo S128x8192
    (shapeCast S128x1
      (multiReduction .maximumf [1] S128 w 0xFF800000#32 Facts₀.reduces_S128x8192_S128 (Or.inl rfl) rfl)
      Facts₀.shapeCasts_S128_S128x1)
    Facts₀.broadcasts_S128x1_S128x8192

/-- The exponentials of a block's entries less their row's maximum. -/
def ex (w : FVec Ideal S128x8192 .f32) : FVec Ideal S128x8192 .f32 := exp (subf w (rmax w))

/-- The sum of each row of those exponentials, repeated along the row. -/
def rsum (w : FVec Ideal S128x8192 .f32) : FVec Ideal S128x8192 .f32 :=
  broadcastTo S128x8192
    (shapeCast S128x1
      (multiReduction .add [1] S128 (ex w) 0x00000000#32 Facts₀.reduces_S128x8192_S128 (Or.inl rfl) rfl)
      Facts₀.shapeCasts_S128_S128x1)
    Facts₀.broadcasts_S128x1_S128x8192

/-- The row softmax of a block, plus ε. -/
def soft (w : FVec Ideal S128x8192 .f32) : FVec Ideal S128x8192 .f32 :=
  addf (divf (ex w) (rsum w)) (broadcast S128x8192 (Scalar.ofBits (F := Ideal) .f32 0x2EDBE6FF#32))

/-- The kernel's stored block is the row softmax, plus ε, of the clamped-distance block. -/
theorem k2_pay1_eq (e : FVec Ideal S128x64 .f32) (eT : FVec Ideal S64x8192 .f32) (sc : FVec Ideal S128x1 .f32)
    (sr : FVec Ideal S1x8192 .f32) : k2_pay1 e eT sc sr = soft (pre e eT sc sr) := by
  show soft (pre (shapeCast S128x64 e Facts₀.shapeCasts_S128x64_S128x64)
      (shapeCast S64x8192 eT Facts₀.shapeCasts_S64x8192_S64x8192)
      (shapeCast S128x1 sc Facts₀.shapeCasts_S128x1_S128x1)
      (shapeCast S1x8192 sr Facts₀.shapeCasts_S1x8192_S1x8192)) = _
  rw [shapeCast_self, shapeCast_self, shapeCast_self, shapeCast_self]

/-- The clamped-distance block at entry (p, j). -/
theorem pre_apply (e : FVec Ideal S128x64 .f32) (eT : FVec Ideal S64x8192 .f32) (sc : FVec Ideal S128x1 .f32)
    (sr : FVec Ideal S1x8192 .f32) (p : Fin 128) (j : Fin 8192) :
    pre e eT sc sr (ix2 p j)
      = 0 - max ((sc (ix2 p (0 : Fin 1)) + sr (ix2 (0 : Fin 1) j))
          - Cert.Spec.two * ∑ c : Fin 64, e (ix2 p c) * eT (ix2 c j)) 0 := by
  have hmm : matmul (F := Ideal) (φ₁ := .f32) (φ₂ := .f32) dot_S128x64_S64x8192_S128x8192_1_0_0_1_n_n (some .fp32) e eT
      (constant S128x8192 .f32 0x00000000#32) (ix2 p j) = ∑ c : Fin 64, e (ix2 p c) * eT (ix2 c j) :=
    matmul_plain_zero_apply (m := 128) (k := 64) (n := 8192)
      Facts₀.dot_S128x64_S64x8192_S128x8192_1_0_0_1_n_n_wf (some .fp32) e eT p j
  have hc : broadcastTo S128x8192 sc Facts₀.broadcasts_S128x1_S128x8192 (ix2 p j) = sc (ix2 p (0 : Fin 1)) :=
    broadcastTo_a1_ab_apply sc Facts₀.broadcasts_S128x1_S128x8192 p j
  have hr : broadcastTo S128x8192 sr Facts₀.broadcasts_S1x8192_S128x8192 (ix2 p j) = sr (ix2 (0 : Fin 1) j) :=
    broadcastTo_1b_ab_apply sr Facts₀.broadcasts_S1x8192_S128x8192 p j
  show Ideal.ofBits .f32 0x00000000#32
      - max ((broadcastTo S128x8192 sc Facts₀.broadcasts_S128x1_S128x8192 (ix2 p j)
              + broadcastTo S128x8192 sr Facts₀.broadcasts_S1x8192_S128x8192 (ix2 p j))
            - Cert.Spec.two * matmul (F := Ideal) (φ₁ := .f32) (φ₂ := .f32) dot_S128x64_S64x8192_S128x8192_1_0_0_1_n_n
                (some .fp32) e eT (constant S128x8192 .f32 0x00000000#32) (ix2 p j))
          (Ideal.ofBits .f32 0x00000000#32) = _
  rw [hmm, hc, hr, Ideal.ofBits_zero_f32]

section Row

variable (w : FVec Ideal S128x8192 .f32) (n : Fin 8192 → EReal) (p : Fin 128) (hw : ∀ j, w (ix2 p j) = n j)
include hw

/-- Where row p of a block is the function n, its row maximum is the maximum of n (started at −∞). -/
theorem rmax_apply (q : Fin 8192) : rmax w (ix2 p q) = Cert.Spec.rowMax n := by
  refine (broadcastTo_a1_ab_apply _ Facts₀.broadcasts_S128x1_S128x8192 p q).trans ?_
  refine (shapeCast_a_a1_apply _ Facts₀.shapeCasts_S128_S128x1 p (0 : Fin 1)).trans ?_
  refine (multiReduction_maximumf_rows_apply w 0xFF800000#32 Facts₀.reduces_S128x8192_S128 (Or.inl rfl) rfl p).trans ?_
  exact congrArg (fun f => (Finset.univ : Finset (Fin 8192)).fold max Cert.Spec.negInf f) (funext hw)

/-- The exponential at (p, q) is exp(n q − max n). -/
theorem ex_apply (q : Fin 8192) : ex w (ix2 p q) = Ideal.exp (n q - Cert.Spec.rowMax n) := by
  show Ideal.exp (w (ix2 p q) - rmax w (ix2 p q)) = _
  rw [rmax_apply w n p hw q, hw q]

/-- The row sum at row p is the sum of the exponentials exp(n j − max n). -/
theorem rsum_apply (q : Fin 8192) :
    rsum w (ix2 p q) = ∑ j : Fin 8192, Ideal.exp (n j - Cert.Spec.rowMax n) := by
  refine (broadcastTo_a1_ab_apply _ Facts₀.broadcasts_S128x1_S128x8192 p q).trans ?_
  refine (shapeCast_a_a1_apply _ Facts₀.shapeCasts_S128_S128x1 p (0 : Fin 1)).trans ?_
  refine (multiReduction_add_rows_apply (ex w) 0x00000000#32 Facts₀.reduces_S128x8192_S128 (Or.inl rfl) rfl p).trans ?_
  exact Finset.sum_congr rfl fun j _ => ex_apply w n p hw j

/-- The row softmax plus ε at (p, q) is the softmax-plus-ε of n at q. -/
theorem soft_apply (q : Fin 8192) : soft w (ix2 p q) = Cert.Spec.softrow n q := by
  show Ideal.div (ex w (ix2 p q)) (rsum w (ix2 p q)) + Cert.Spec.eps = _
  rw [ex_apply w n p hw q, rsum_apply w n p hw q]
  rfl

end Row

/-- The stored block at (p, q): the softmax-plus-ε of the row j ↦ n(p, j), at column q. -/
theorem pay2_out (e : Vec Ideal S128x64 .f32) (eT : Vec Ideal S64x8192 .f32) (sc : Vec Ideal S128x1 .f32)
    (sr : Vec Ideal S1x8192 .f32) (p : Fin 128) (q : Fin 8192) :
    k2_pay1 e eT sc sr (ix2 p q)
      = Cert.Spec.softrow (fun j : Fin 8192 => 0 - max ((sc (ix2 p (0 : Fin 1)) + sr (ix2 (0 : Fin 1) j))
          - Cert.Spec.two * ∑ c : Fin 64, e (ix2 p c) * eT (ix2 c j)) 0) q := by
  rw [k2_pay1_eq (e : FVec Ideal S128x64 .f32) eT sc sr]
  exact soft_apply (pre e eT sc sr) _ p (fun j => pre_apply e eT sc sr p j) q

end Cert.KernelIdeal.Pay

end
-- ==== Proof.ValRegion2.lean ====
/-
  The third region's output array: the row softmax plus ε of minus the clamped squared distances.

  The region's grid has 64 points.  Point t reads rows 128 t … 128 t + 127 of the embedding and of the column of
  squared norms, the whole transposed embedding and the whole row of squared norms, and writes rows 128 t … 128 t + 127
  of the result.  What it stores at row p' and column q of its block is the softmax-plus-ε, at column q, of the row
  j ↦ −max ((q(P) + q(j)) − 2 · Σ_c E(P, c) · Eᵀ(c, j), 0) with P = 128 t + p' — a function of the whole arrays at the
  entry (P, q) alone.  So every point writes its block of ONE whole-array function; the 64 blocks of 128 rows cover
  the 8192 rows (row P lies in the block of point P / 128), and the array ends holding that function.
-/
import proofs.«111755_j39453569581320_2_alg».proof.Proof.FrRegion2
import proofs.«111755_j39453569581320_2_alg».proof.Proof.PaySoft
import Idealize.ShloMosaic.Lib.Pipeline.Value

set_option maxRecDepth 16384

noncomputable section

namespace Cert.KernelIdeal.Val

open Cert.KernelIdeal Cert.KernelIdeal.Gen Cert.KernelIdeal.Fr Idealize.ShloMosaic Idealize.ShloMosaic.TcCoe Idealize.ShloMosaic.ValueIdx
open Idealize.ShloMosaic.Pipeline (Dat)
open Cert.Spec

variable (V : (c : Dev nD) → (b : Ref sig .tc) → Buf (Elt Ideal) ((c : Thread nD τ).loc b))

theorem hz2 : (![0, 0] : Fin 2 → Nat) = fun _ => 0 := funext fun a => by fin_cases a <;> rfl

/-- Row p of minus the clamped squared distances, from the four arrays the region reads. -/
def nrow (e : Mat 8192 64) (eT : Mat 64 8192) (sc : Mat 8192 1) (sr : Mat 1 8192) (p : Fin 8192) : Fin 8192 → EReal :=
  fun j => 0 - max ((sc (ix2 p (0 : Fin 1)) + sr (ix2 (0 : Fin 1) j)) - two * ∑ cc : Fin 64, e (ix2 p cc) * eT (ix2 cc j)) 0

/-- The whole result array as one function of the four arrays the region reads. -/
def G2 (e : Mat 8192 64) (eT : Mat 64 8192) (sc : Mat 8192 1) (sr : Mat 1 8192) : Mat 8192 8192 :=
  fun i => softrow (nrow e eT sc sr (i 0)) (i 1)

/-- The windows' block indices over the grid: the row-blocked windows move with the point, the others stay. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The embedding's block at point t: rows 128 t … of the embedding. -/
theorem blk2_0_apply (c : Dev nD) (t : Fin cfg2.N) (p' : Fin 128) (P : Fin 8192) (hP : P.val = t.val * 128 + p'.val) (cc : Fin 64) :
    (iblk2 (F := Ideal) V c 0 t : Vec Ideal S128x64 .f32) (ix2 p' cc) = (V c main_v5 : Mat 8192 64) (ix2 P cc) := by
  obtain ⟨h0, h1, -⟩ := idx_facts2 t
  unfold iblk2
  show (V c main_v5 : Mat 8192 64) _ = (V c main_v5 : Mat 8192 64) _
  congr 1
  funext a
  apply Fin.ext
  match a with
  | ⟨0, _⟩ => show win2_0.index t (0 : Fin 2) * 128 + 1 * p'.val = P.val; rw [h0, hP]; omega
  | ⟨1, _⟩ => show win2_0.index t (1 : Fin 2) * 64 + 1 * cc.val = cc.val; rw [h1]; omega

/-- The transposed embedding's block at every point: the whole array. -/
theorem blk2_1_apply (c : Dev nD) (t : Fin cfg2.N) (cc : Fin 64) (j : Fin 8192) :
    (iblk2 (F := Ideal) V c 1 t : Vec Ideal S64x8192 .f32) (ix2 cc j) = (V c main_v10 : Mat 64 8192) (ix2 cc j) := by
  obtain ⟨-, -, h0, h1, -⟩ := idx_facts2 t
  unfold iblk2
  show (V c main_v10 : Mat 64 8192) _ = (V c main_v10 : Mat 64 8192) _
  congr 1
  funext a
  apply Fin.ext
  match a with
  | ⟨0, _⟩ => show win2_1.index t (0 : Fin 2) * 64 + 1 * cc.val = cc.val; rw [h0]; omega
  | ⟨1, _⟩ => show win2_1.index t (1 : Fin 2) * 8192 + 1 * j.val = j.val; rw [h1]; omega

/-- The column of squared norms' block at point t: rows 128 t … of the column. -/
theorem blk2_2_apply (c : Dev nD) (t : Fin cfg2.N) (p' : Fin 128) (P : Fin 8192) (hP : P.val = t.val * 128 + p'.val) :
    (iblk2 (F := Ideal) V c 2 t : Vec Ideal S128x1 .f32) (ix2 p' (0 : Fin 1)) = (V c main_v8 : Mat 8192 1) (ix2 P (0 : Fin 1)) := by
  obtain ⟨-, -, -, -, h0, h1, -⟩ := idx_facts2 t
  unfold iblk2
  show (V c main_v8 : Mat 8192 1) _ = (V c main_v8 : Mat 8192 1) _
  congr 1
  funext a
  apply Fin.ext
  match a with
  | ⟨0, _⟩ => show win2_2.index t (0 : Fin 2) * 128 + 1 * p'.val = P.val; rw [h0, hP]; omega
  | ⟨1, _⟩ => show win2_2.index t (1 : Fin 2) * 1 + 1 * 0 = 0; rw [h1]

/-- The row of squared norms' block at every point: the whole row. -/
theorem blk2_3_apply (c : Dev nD) (t : Fin cfg2.N) (j : Fin 8192) :
    (iblk2 (F := Ideal) V c 3 t : Vec Ideal S1x8192 .f32) (ix2 (0 : Fin 1) j) = (V c main_v9 : Mat 1 8192) (ix2 (0 : Fin 1) j) := by
  obtain ⟨-, -, -, -, -, -, h0, h1, -⟩ := idx_facts2 t
  unfold iblk2
  show (V c main_v9 : Mat 1 8192) _ = (V c main_v9 : Mat 1 8192) _
  congr 1
  funext a
  apply Fin.ext
  match a with
  | ⟨0, _⟩ => show win2_3.index t (0 : Fin 2) * 1 + 1 * 0 = 0; rw [h0]
  | ⟨1, _⟩ => show win2_3.index t (1 : Fin 2) * 8192 + 1 * j.val = j.val; rw [h1]; omega

/-- What point t writes back is block t of the whole-array function. -/
theorem flushed2_eq (c : Dev nD) (t : Fin cfg2.N) :
    (dat2 (F := Ideal) V c).flushed 4 t
      = ((cfg2.win 4).blk t).view.read (Elt Ideal) (G2 (V c main_v5) (V c main_v10) (V c main_v8) (V c main_v9)) := by
  show (cfg2.win 4).cut (grid2.coords t) ((dat2 (F := Ideal) V c).after 4 t) = _
  rw [after2_4]
  unfold out2_4
  rw [View.canon_unit_zero hz2]
  simp only [View.ld_unit_zero (S := S128x64) hz2, View.ld_unit_zero (S := S64x8192) hz2, View.ld_unit_zero (S := S128x1) hz2,
    View.ld_unit_zero (S := S1x8192) hz2]
  funext y
  obtain ⟨p', q, rfl⟩ : ∃ (p' : Fin 128) (q : Fin 8192), y = ix2 p' q := ⟨y 0, y 1, eq_ix2 y⟩
  have hN : cfg2.N = 64 := N_2
  have hlt : t.val * 128 + p'.val < 8192 := by have := t.isLt; have := p'.isLt; omega
  have hemb : ((cfg2.win 4).blk t).view.emb (ix2 p' q) = ix2 (⟨t.val * 128 + p'.val, hlt⟩ : Fin 8192) q := by
    obtain ⟨-, -, -, -, -, -, -, -, h0, h1⟩ := idx_facts2 t
    funext a
    apply Fin.ext
    match a with
    | ⟨0, _⟩ => show win2_4.index t (0 : Fin 2) * 128 + 1 * p'.val = t.val * 128 + p'.val; rw [h0]; omega
    | ⟨1, _⟩ => show win2_4.index t (1 : Fin 2) * 8192 + 1 * q.val = q.val; rw [h1]; omega
  show k2_pay1 (iblk2 V c 0 t) (iblk2 V c 1 t) (iblk2 V c 2 t) (iblk2 V c 3 t) (ix2 p' q)
      = G2 (V c main_v5) (V c main_v10) (V c main_v8) (V c main_v9) (((cfg2.win 4).blk t).view.emb (ix2 p' q))
  rw [hemb]
  refine (Pay.pay2_out (iblk2 V c 0 t) (iblk2 V c 1 t) (iblk2 V c 2 t) (iblk2 V c 3 t) p' q).trans ?_
  show softrow _ q = softrow (nrow (V c main_v5) (V c main_v10) (V c main_v8) (V c main_v9) ⟨t.val * 128 + p'.val, hlt⟩) q
  refine congrArg (fun n => softrow n q) (funext fun j => ?_)
  unfold nrow
  simp only [blk2_0_apply V c t p' ⟨t.val * 128 + p'.val, hlt⟩ rfl, blk2_1_apply V c t, blk2_2_apply V c t p' ⟨t.val * 128 + p'.val, hlt⟩ rfl,
    blk2_3_apply V c t]

/-- An index of the result is in point t's block iff its row lies in the block's 128 rows. -/
theorem mem_blk2 (t : Fin cfg2.N) (i : S8192x8192.Idx) :
    i ∈ ((cfg2.win 4).blk t).view.set ↔ ∀ a : Fin 2, win2_4.index t a * S128x8192.size a ≤ (i a).val
      ∧ (i a).val < win2_4.index t a * S128x8192.size a + S128x8192.size a := by
  show i ∈ ((View.whole main_v11).slice (win2_4.rect t)).set ↔ _
  rw [View.set_slice_whole, Rect.mem_set_unit]
  exact Iff.rfl

/-- Every index of the result lies in the block of the point its row names. -/
theorem cover2 (i : S8192x8192.Idx) :
    ∃ t : Fin cfg2.N, (cfg2.win 4).flush t = true ∧ i ∈ ((cfg2.win 4).blk t).view.set := by
  have hi0 : (i 0).val < 8192 := (i 0).isLt
  have hi1 : (i 1).val < 8192 := (i 1).isLt
  have hN : cfg2.N = 64 := N_2
  have ht : (i 0).val / 128 < cfg2.N := by rw [hN]; omega
  obtain ⟨-, -, -, -, -, -, -, -, h0, h1⟩ := idx_facts2 ⟨(i 0).val / 128, ht⟩
  refine ⟨⟨(i 0).val / 128, ht⟩, flush2_4 _, ?_⟩
  rw [mem_blk2]
  intro a
  match a with
  | ⟨0, _⟩ =>
    show win2_4.index ⟨(i 0).val / 128, ht⟩ (0 : Fin 2) * 128 ≤ (i 0).val
      ∧ (i 0).val < win2_4.index ⟨(i 0).val / 128, ht⟩ (0 : Fin 2) * 128 + 128
    rw [h0]
    show (i 0).val / 128 * 128 ≤ (i 0).val ∧ (i 0).val < (i 0).val / 128 * 128 + 128
    omega
  | ⟨1, _⟩ =>
    show win2_4.index ⟨(i 0).val / 128, ht⟩ (1 : Fin 2) * 8192 ≤ (i 1).val
      ∧ (i 1).val < win2_4.index ⟨(i 0).val / 128, ht⟩ (1 : Fin 2) * 8192 + 8192
    rw [h1]
    omega

/-- The result array after the region is the whole-array function. -/
theorem final2_fn (c : Dev nD) :
    (dat2 (F := Ideal) V c).arrAt 4 cfg2.N = G2 (V c main_v5) (V c main_v10) (V c main_v8) (V c main_v9) :=
  (dat2 (F := Ideal) V c).arrAt_eq_of_cover 4 (G2 (V c main_v5) (V c main_v10) (V c main_v8) (V c main_v9))
    (fun t _ => flushed2_eq V c t) (fun i => cover2 i)

/-- The row function, spelt out. -/
theorem nrow_apply (e : Mat 8192 64) (eT : Mat 64 8192) (sc : Mat 8192 1) (sr : Mat 1 8192) (p j : Fin 8192) :
    nrow e eT sc sr p j
      = 0 - max ((sc (ix2 p (0 : Fin 1)) + sr (ix2 (0 : Fin 1) j)) - two * ∑ cc : Fin 64, e (ix2 p cc) * eT (ix2 cc j)) 0 := rfl

theorem G2_apply (e : Mat 8192 64) (eT : Mat 64 8192) (sc : Mat 8192 1) (sr : Mat 1 8192) (p q : Fin 8192) :
    G2 e eT sc sr (ix2 p q) = softrow (nrow e eT sc sr p) q := rfl

/-- The result array after the region, at an entry: the softmax-plus-ε of row p of minus the clamped squared distances. -/
theorem final2 (c : Dev nD) (p q : Fin 8192) :
    (dat2 (F := Ideal) V c).arrAt 4 cfg2.N (ix2 p q)
      = softrow (nrow (V c main_v5) (V c main_v10) (V c main_v8) (V c main_v9) p) q :=
  (congrFun (final2_fn V c) (ix2 p q)).trans rfl

/-- When the column and the row hold the squared norms of the rows of E and the second array is E transposed, the
    whole-array function is the specification's result from E. -/
theorem G2_eq_out (E : Mat 8192 64) (eT : Mat 64 8192) (sc : Mat 8192 1) (sr : Mat 1 8192)
    (hsc : ∀ p : Fin 8192, sc (ix2 p (0 : Fin 1)) = sqn E p) (hsr : ∀ j : Fin 8192, sr (ix2 (0 : Fin 1) j) = sqn E j)
    (heT : ∀ (cc : Fin 64) (j : Fin 8192), eT (ix2 cc j) = E (ix2 j cc)) : G2 E eT sc sr = Cert.Spec.out E := by
  funext i
  obtain ⟨p, q, rfl⟩ : ∃ (p : Fin 8192) (q : Fin 8192), i = ix2 p q := ⟨i 0, i 1, eq_ix2 i⟩
  rw [G2_apply, out_apply]
  refine congrArg (fun n => softrow n q) (funext fun j => ?_)
  rw [nrow_apply, hsc, hsr]
  unfold negDist score
  simp only [heT]

end Cert.KernelIdeal.Val

end
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.HostRead.lean ====
/-
  The kernel program's host stretches, read back.

  Between its three regions the kernel program runs a few whole-array operations on the host.  The first stretch forms
  X · W1 and converts it to the narrower float format, which at the exact extended reals is the identity; the second
  does the same for H · W2.  The third squares the embedding entrywise and sums each row from the zero word (0 + x = x),
  giving the squared norms q; it reshapes q to a column [8192, 1] and to a row [1, 8192], whose entries (i, 0) and (0, j)
  are q i and q j; and it transposes the embedding, whose entry (c, j) is the embedding's (j, c).  Each statement is
  for an arbitrary valuation of the buffers before the stretch.
-/
import proofs.«111755_j39453569581320_2_alg».proof.Proof.Gen.KernelIdeal.Launch
import proofs.«111755_j39453569581320_2_alg».proof.Proof.Spec
import proofs.«111755_j39453569581320_2_alg».proof.Proof.LibPlainDotGeneral
import proofs.«111755_j39453569581320_2_alg».proof.Proof.LibColumnCast
import proofs.«111755_j39453569581320_2_alg».proof.Proof.LibLaneSum
import Idealize.ShloMosaic.Lib.StableHlo.Run
import Idealize.ShloMosaic.Lib.ValueLayout

noncomputable section

namespace Cert.KernelIdeal.Val

open Cert.KernelIdeal Cert.KernelIdeal.Gen Idealize.ShloMosaic Idealize.ShloMosaic.TcCoe Idealize.ShloMosaic.ValueIdx
open Idealize.ShloMosaic.StableHlo

/-- The sum over each row of the entrywise square, started from the zero word: the squared norm of the row. -/
theorem rowsq_apply (e : FVec Ideal S8192x64 .f32) (i : Fin 8192) :
    Host.reduceAdd (F := Ideal) (mulf e e) (constant (F := Ideal) S_ .f32 0x00000000#32) reducesTo_S8192x64_S8192_d1 h_S_ (ix1 i)
      = Cert.Spec.sqn e i := by
  have hr : S8192x64.Reduces [1] S8192 := by decide
  unfold Cert.Spec.sqn
  simp only [Host.reduceAdd, Ideal.hostReduceAdd_def]
  rw [Ideal.hostReduceAdd_single reducesTo_S8192x64_S8192_d1 hr, constant_apply, Ideal.ofBits_zero_f32, zero_add]
  exact Finset.sum_congr rfl fun c _ => congrArg (mulf e e) (reduces_rows_lift hr i c)

/-- After the first stretch the converted product holds X · W1. -/
theorem host0_v1 (W : Valuation τ sig (Elt Ideal)) :
    (StableHlo.after (hostOps0 (F := Ideal)) W (Proc.devRef .tc main_v1) : Cert.Spec.Mat 8192 256)
      = Cert.Spec.mm (W (Proc.devRef .tc main_arg1)) (W (Proc.devRef .tc main_arg2)) := by
  after_results
  funext p
  obtain ⟨i, j, rfl⟩ : ∃ (i : Fin 8192) (j : Fin 256), p = ix2 i j := ⟨p 0, p 1, eq_ix2 p⟩
  exact (dotGeneral_plain_apply (φ₁ := .f32) (φ₂ := .f32) Gen.dot_S8192x512_S512x256_S8192x256_1_0_0_1_n_n_wf none
    (W (Proc.devRef .tc main_arg1) : FVec Ideal S8192x512 .f32) (W (Proc.devRef .tc main_arg2) : FVec Ideal S512x256 .f32) i j).trans
    (Cert.Spec.mm_apply _ _ i j).symm

/-- After the second stretch the converted product holds H · W2. -/
theorem host1_v4 (W : Valuation τ sig (Elt Ideal)) :
    (StableHlo.after (hostOps1 (F := Ideal)) W (Proc.devRef .tc main_v4) : Cert.Spec.Mat 8192 64)
      = Cert.Spec.mm (W (Proc.devRef .tc main_v2)) (W (Proc.devRef .tc main_arg3)) := by
  after_results
  funext p
  obtain ⟨i, j, rfl⟩ : ∃ (i : Fin 8192) (j : Fin 64), p = ix2 i j := ⟨p 0, p 1, eq_ix2 p⟩
  exact (dotGeneral_plain_apply (φ₁ := .f32) (φ₂ := .f32) Gen.dot_S8192x256_S256x64_S8192x64_1_0_0_1_n_n_wf none
    (W (Proc.devRef .tc main_v2) : FVec Ideal S8192x256 .f32) (W (Proc.devRef .tc main_arg3) : FVec Ideal S256x64 .f32) i j).trans
    (Cert.Spec.mm_apply _ _ i j).symm

/-- After the third stretch the column of squared norms holds q i at (i, 0). -/
theorem host2_v8 (W : Valuation τ sig (Elt Ideal)) (i : Fin 8192) :
    (StableHlo.after (hostOps2 (F := Ideal)) W (Proc.devRef .tc main_v8) : Cert.Spec.Mat 8192 1) (ix2 i (0 : Fin 1))
      = Cert.Spec.sqn (W (Proc.devRef .tc main_v5)) i := by
  after_results
  refine Eq.trans ?_ (rowsq_apply (W (Proc.devRef .tc main_v5)) i)
  exact shapeCast_a_a1_apply _ shapeCasts_S8192_S8192x1 i (0 : Fin 1)

/-- After the third stretch the row of squared norms holds q j at (0, j). -/
theorem host2_v9 (W : Valuation τ sig (Elt Ideal)) (j : Fin 8192) :
    (StableHlo.after (hostOps2 (F := Ideal)) W (Proc.devRef .tc main_v9) : Cert.Spec.Mat 1 8192) (ix2 (0 : Fin 1) j)
      = Cert.Spec.sqn (W (Proc.devRef .tc main_v5)) j := by
  after_results
  refine Eq.trans ?_ (rowsq_apply (W (Proc.devRef .tc main_v5)) j)
  exact shapeCast_a_1a_apply _ shapeCasts_S8192_S1x8192 (0 : Fin 1) j

/-- After the third stretch the transposed embedding holds, at (c, j), the embedding's entry (j, c). -/
theorem host2_v10 (W : Valuation τ sig (Elt Ideal)) (cc : Fin 64) (j : Fin 8192) :
    (StableHlo.after (hostOps2 (F := Ideal)) W (Proc.devRef .tc main_v10) : Cert.Spec.Mat 64 8192) (ix2 cc j)
      = (W (Proc.devRef .tc main_v5) : Cert.Spec.Mat 8192 64) (ix2 j cc) := by
  after_results
  exact transpose_ix2_apply _ transposes_S8192x64_S64x8192_1_0 cc j

end Cert.KernelIdeal.Val

end
-- ==== Proof.KernelValue.lean ====
/-
  The kernel program's result array as the specification's function of the four argument arrays.
  Reading the run's boundaries backwards: the result is the third region's output, the row softmax of minus the clamped
  squared distances of the embedding E; E is the second region's output A · (H · W2); H is the first region's output
  max (A · (X · W1), 0); the host stretches in between are the small products, the squared norms and the transpose.
-/
import proofs.«111755_j39453569581320_2_alg».proof.Proof.FrMain
import proofs.«111755_j39453569581320_2_alg».proof.Proof.ValRegion0
import proofs.«111755_j39453569581320_2_alg».proof.Proof.ValRegion1
import proofs.«111755_j39453569581320_2_alg».proof.Proof.ValRegion2
import proofs.«111755_j39453569581320_2_alg».proof.Proof.HostRead
import proofs.«111755_j39453569581320_2_alg».proof.Proof.Spec

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The argument arrays at the regions' entries -/

theorem W1_of_arg (c : Dev nD) (b : Ref sig .tc) (hb : b ∉ hostOps0_W) : W1 m c (Proc.devRef .tc b) = m ((c : Thread nD τ).loc b) :=
  StableHlo.after_of_writes_sub hostOps0 _ hostOps0_writes hb

theorem W2_arg0 (c : Dev nD) : W2 m c (Proc.devRef .tc main_arg0) = m ((c : Thread nD τ).loc main_arg0) :=
  ((W2_arr m c 0).trans (((dat0 (V1 m) c).arrAt_in 0 rfl _).trans (A_eq0 (V1 m) c 0))).trans (W1_of_arg m c main_arg0 (by decide))
theorem W2_arg3 (c : Dev nD) : W2 m c (Proc.devRef .tc main_arg3) = m ((c : Thread nD τ).loc main_arg3) :=
  (W2_of_ne m c main_arg3 (by decide)).trans (W1_of_arg m c main_arg3 (by decide))
theorem W3_arg0 (c : Dev nD) : W3 m c (Proc.devRef .tc main_arg0) = m ((c : Thread nD τ).loc main_arg0) :=
  (StableHlo.after_of_writes_sub hostOps1 _ hostOps1_writes (by decide)).trans (W2_arg0 m c)

/-! ## The three regions' outputs -/

/-- The hidden layer. -/
theorem hidden_eq (c : Dev nD) :
    (W2 m c (Proc.devRef .tc main_v2) : Cert.Spec.Mat 8192 256) = Cert.Spec.hidden (m ((c : Thread nD τ).loc main_arg0)) (m ((c : Thread nD τ).loc main_arg1)) (m ((c : Thread nD τ).loc main_arg2)) := by
  refine (W2_arr m c 2).trans ?_
  rw [final0]
  show Cert.Spec.relu (Cert.Spec.mm (W1 m c (Proc.devRef .tc main_arg0)) (StableHlo.after (hostOps0 (F := Ideal)) (W0 m c) (Proc.devRef .tc main_v1))) = _
  rw [W1_of_arg m c main_arg0 (by decide), host0_v1]
  rfl

/-- The embedding. -/
theorem emb_eq (c : Dev nD) :
    (W4 m c (Proc.devRef .tc main_v5) : Cert.Spec.Mat 8192 64) = Cert.Spec.emb (m ((c : Thread nD τ).loc main_arg0)) (m ((c : Thread nD τ).loc main_arg1)) (m ((c : Thread nD τ).loc main_arg2)) (m ((c : Thread nD τ).loc main_arg3)) := by
  refine (W4_arr m c 2).trans ?_
  rw [final1]
  show Cert.Spec.mm (W3 m c (Proc.devRef .tc main_arg0)) (StableHlo.after (hostOps1 (F := Ideal)) (W2 m c) (Proc.devRef .tc main_v4)) = _
  rw [W3_arg0, host1_v4, hidden_eq, W2_arg3]
  rfl

/-- The result array. -/
theorem result_eq (c : Dev nD) :
    (dat2 (F := Ideal) (V5 m) c).arrAt 4 cfg2.N = Cert.Spec.G (m ((c : Thread nD τ).loc main_arg0)) (m ((c : Thread nD τ).loc main_arg1)) (m ((c : Thread nD τ).loc main_arg2)) (m ((c : Thread nD τ).loc main_arg3)) := by
  have e5 : (V5 m c main_v5 : Cert.Spec.Mat 8192 64) = W4 m c (Proc.devRef .tc main_v5) :=
    StableHlo.after_of_writes_sub hostOps2 _ hostOps2_writes (by decide)
  rw [final2_fn, G2_eq_out (V5 m c main_v5) (V5 m c main_v10) (V5 m c main_v8) (V5 m c main_v9)
    (fun p => by rw [e5]; exact host2_v8 (W4 m c) p) (fun j => by rw [e5]; exact host2_v9 (W4 m c) j)
    (fun cc j => by rw [e5]; exact host2_v10 (W4 m c) cc j), e5, emb_eq]
  rfl

/-- The kernel program's run with the result named. -/
theorem run_G : θ_run defs (onTc (τ := τ) (main (F := Ideal))) ⟨m, fun _ => 0, ρ⟩ (fun r => ∀ c : Dev nD,
      r.2.mem ((c.tc : Thread nD τ).loc main_v11) = Cert.Spec.G (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m c), (h c).2⟩) (Cert.KernelIdeal.Fr.run_result (F := Ideal) m ρ)

end Cert.KernelIdeal.Val

end
-- ==== Proof.RefStages.lean ====
/-
  The reference's first stages compute the embedding.

  With A : [8192, 8192], X : [8192, 512], W1 : [512, 256], W2 : [256, 64], the reference forms X · W1, then
  A · (X · W1), takes the entrywise maximum with zero, multiplies by W2 and by A once more.  Each product, read at an
  entry (r, j), is the sum over the contracted coordinate c of the left operand at (r, c) times the right at (c, j);
  the maximum with the broadcast zero constant is the maximum with 0.  So the fifth stage is the embedding
  E = A · (max (A · (X · W1), 0) · W2) of the specification.
-/
import proofs.«111755_j39453569581320_2_alg».proof.Proof.Gen.ReferenceIdeal.Read
import proofs.«111755_j39453569581320_2_alg».proof.Proof.Spec

noncomputable section

namespace Cert.RefValue

open Cert.ReferenceIdeal Cert.ReferenceIdeal.Gen Cert.ReferenceIdeal.Read Idealize.ShloMosaic Idealize.ShloMosaic.ValueIdx
open Cert.Spec

/-- Two rank-2 indices with the same two coordinates are equal. -/
local macro "idx2" : tactic =>
  `(tactic| (funext a; apply Fin.ext; match a with | ⟨0, _⟩ => rfl | ⟨1, _⟩ => rfl))

/-- X · W1. -/
theorem stage0_eq (x1 : Mat 8192 512) (x2 : Mat 512 256) : val_main_v0 (F := Ideal) x1 x2 = mm x1 x2 := by
  funext p
  obtain ⟨i, j, rfl⟩ : ∃ (i : Fin 8192) (j : Fin 256), p = ix2 i j := ⟨p 0, p 1, eq_ix2 p⟩
  rw [val_main_v0_apply]
  refine Eq.trans ?_ (mm_apply x1 x2 i j).symm
  refine Finset.sum_congr rfl fun k _ => ?_
  exact congrArg₂ (· * ·) (congrArg x1 (by idx2)) (congrArg x2 (by idx2))

/-- A · (X · W1). -/
theorem stage1_eq (x0 : Mat 8192 8192) (x1 : Mat 8192 512) (x2 : Mat 512 256) :
    val_main_v1 (F := Ideal) x0 x1 x2 = mm x0 (mm x1 x2) := by
  funext p
  obtain ⟨i, j, rfl⟩ : ∃ (i : Fin 8192) (j : Fin 256), p = ix2 i j := ⟨p 0, p 1, eq_ix2 p⟩
  rw [val_main_v1_apply, stage0_eq]
  refine Eq.trans ?_ (mm_apply x0 (mm x1 x2) i j).symm
  refine Finset.sum_congr rfl fun k _ => ?_
  exact congrArg₂ (· * ·) (congrArg x0 (by idx2)) (congrArg (mm x1 x2) (by idx2))

/-- The hidden layer: the maximum of A · (X · W1) with zero. -/
theorem stage2_eq (x0 : Mat 8192 8192) (x1 : Mat 8192 512) (x2 : Mat 512 256) :
    val_main_v2 (F := Ideal) x0 x1 x2 = hidden x0 x1 x2 := by
  funext p
  rw [val_main_v2_apply, stage1_eq, val_main_call0_v0_apply, val_main_call0_cst_apply, Ideal.maximumf_def, Ideal.ofBits_def,
    Ideal.ofBits_zero_f32]
  rfl

/-- H · W2. -/
theorem stage3_eq (x0 : Mat 8192 8192) (x1 : Mat 8192 512) (x2 : Mat 512 256) (x3 : Mat 256 64) :
    val_main_v3 (F := Ideal) x0 x1 x2 x3 = mm (hidden x0 x1 x2) x3 := by
  funext p
  obtain ⟨i, j, rfl⟩ : ∃ (i : Fin 8192) (j : Fin 64), p = ix2 i j := ⟨p 0, p 1, eq_ix2 p⟩
  rw [val_main_v3_apply, stage2_eq]
  refine Eq.trans ?_ (mm_apply (hidden x0 x1 x2) x3 i j).symm
  refine Finset.sum_congr rfl fun k _ => ?_
  exact congrArg₂ (· * ·) (congrArg (hidden x0 x1 x2) (by idx2)) (congrArg x3 (by idx2))

/-- The embedding: A · (H · W2). -/
theorem emb_eq (x0 : Mat 8192 8192) (x1 : Mat 8192 512) (x2 : Mat 512 256) (x3 : Mat 256 64) :
    val_main_v4 (F := Ideal) x0 x1 x2 x3 = emb x0 x1 x2 x3 := by
  funext p
  obtain ⟨i, j, rfl⟩ : ∃ (i : Fin 8192) (j : Fin 64), p = ix2 i j := ⟨p 0, p 1, eq_ix2 p⟩
  rw [val_main_v4_apply, stage3_eq]
  refine Eq.trans ?_ (mm_apply x0 (mm (hidden x0 x1 x2) x3) i j).symm
  refine Finset.sum_congr rfl fun k _ => ?_
  exact congrArg₂ (· * ·) (congrArg x0 (by idx2)) (congrArg (mm (hidden x0 x1 x2) x3) (by idx2))

end Cert.RefValue

end
-- ==== Proof.RefStages2.lean ====
/-
  From the embedding to the result: the reference's remaining stages, read at an entry.

  Write E for the embedding (the fifth stage).  The reference squares E entrywise and sums each row, q i = Σ_c E(i, c)²,
  a float sum started from the zero word, and 0 + x = x.  It broadcasts q down the columns and along the rows and adds,
  q i + q j; multiplies the literal 2 by E · Eᵀ, whose entry (i, j) is Σ_c E(i, c) · E(j, c); subtracts, takes the maximum
  with the broadcast zero, and negates: n i j = −max ((q i + q j) − 2 · Σ_c E(i, c) · E(j, c), 0), and 0 − x = −x.
  The row maximum is the fold of max from the literal −∞ over the row; the reference takes the maximum of that with a
  broadcast −∞ once more, which changes nothing because a fold of max is at least its start.  Then it subtracts the row
  maximum, exponentiates, sums each row (again from the zero word), divides, and adds the literal ε: the row softmax
  plus ε of the specification.  The embedding is carried as one opaque term throughout.
-/
import proofs.«111755_j39453569581320_2_alg».proof.Proof.Gen.ReferenceIdeal.Read
import proofs.«111755_j39453569581320_2_alg».proof.Proof.Spec
import proofs.«111755_j39453569581320_2_alg».proof.Proof.LibLaneSum

noncomputable section

namespace Cert.RefValue

open Cert.ReferenceIdeal Cert.ReferenceIdeal.Gen Cert.ReferenceIdeal.Read Idealize.ShloMosaic Idealize.ShloMosaic.ValueIdx
open Cert.Spec

/-- Two rank-2 indices with the same two coordinates are equal. -/
local macro "idx2" : tactic =>
  `(tactic| (funext a; apply Fin.ext; match a with | ⟨0, _⟩ => rfl | ⟨1, _⟩ => rfl))
/-- Two rank-1 indices with the same coordinate are equal. -/
local macro "idx1" : tactic =>
  `(tactic| (funext a; apply Fin.ext; match a with | ⟨0, _⟩ => rfl))

variable (x0 : Mat 8192 8192) (x1 : Mat 8192 512) (x2 : Mat 512 256) (x3 : Mat 256 64)

/-- The squared norm of row i of the embedding. -/
theorem sqnorm_apply (i : Fin 8192) :
    val_main_v6 (F := Ideal) x0 x1 x2 x3 (ix1 i) = sqn (val_main_v4 (F := Ideal) x0 x1 x2 x3) i := by
  unfold sqn
  rw [val_main_v6_apply, val_main_cst_apply, Ideal.ofBits_def, Ideal.ofBits_zero_f32, zero_add]
  refine Finset.sum_congr rfl fun k _ => ?_
  rw [val_main_v5_apply, Ideal.mulf_def, show idx_main_v6 (ix1 i) k = ix2 i k from by idx2]

/-- The inner product of rows i and j of the embedding: the entry of E · Eᵀ. -/
theorem gram_apply (i j : Fin 8192) :
    val_main_v13 (F := Ideal) x0 x1 x2 x3 (ix2 i j) = score (val_main_v4 (F := Ideal) x0 x1 x2 x3) i j := by
  unfold score
  rw [val_main_v13_apply]
  refine Finset.sum_congr rfl fun k _ => ?_
  rw [val_main_v12_apply, show lidx_main_v13 (ix2 i j) k = ix2 i k from by idx2,
    show idx_main_v12 (ridx_main_v13 (ix2 i j) k) = ix2 j k from by idx2]

/-- Minus the clamped squared distance between rows i and j. -/
theorem negdist_apply (i j : Fin 8192) :
    val_main_v18 (F := Ideal) x0 x1 x2 x3 (ix2 i j) = negDist (val_main_v4 (F := Ideal) x0 x1 x2 x3) i j := by
  unfold negDist
  rw [val_main_v18_apply, val_main_v17_apply, val_main_v16_apply, val_main_v11_apply, val_main_v9_apply, val_main_v7_apply,
    val_main_v10_apply, val_main_v8_apply, val_main_v15_apply, val_main_v14_apply, val_main_cst_0_apply, gram_apply,
    val_main_call1_v0_apply, val_main_call1_cst_apply,
    show idx_main_v7 (idx_main_v9 (ix2 i j)) = ix1 i from by idx1,
    show idx_main_v8 (idx_main_v10 (ix2 i j)) = ix1 j from by idx1, sqnorm_apply, sqnorm_apply, zero_sub]
  simp only [Ideal.ofBits_def, Ideal.ofBits_zero_f32]
  rfl

/-- The row maximum: the fold of max from −∞ over row i; the second maximum with −∞ changes nothing. -/
theorem rowmax_apply (i : Fin 8192) :
    val_main_v21 (F := Ideal) x0 x1 x2 x3 (ix1 i) = rowMax (negDist (val_main_v4 (F := Ideal) x0 x1 x2 x3) i) := by
  have h19 : val_main_v19 (F := Ideal) x0 x1 x2 x3 (ix1 i) = rowMax (negDist (val_main_v4 (F := Ideal) x0 x1 x2 x3) i) := by
    have hy : ∀ j : Fin 8192, val_main_v18 (F := Ideal) x0 x1 x2 x3 (ix2 i j)
        = negDist (val_main_v4 (F := Ideal) x0 x1 x2 x3) i j := negdist_apply x0 x1 x2 x3 i
    unfold val_main_v19
    generalize val_main_v18 (F := Ideal) x0 x1 x2 x3 = y at hy ⊢
    have hr : S8192x8192.Reduces [1] S8192 := by decide
    refine (Host.reduce_eq_fold_single (α := Ideal .f32) (FloatOps.maximumf (F := Ideal) (φ := .f32)) y
      (val_main_cst_1 (F := Ideal)) reducesTo_S8192x8192_S8192_d1 hr h_S_ (ix1 i)).trans ?_
    rw [val_main_cst_1_apply]
    unfold rowMax
    exact congrArg (fun f => Finset.fold max negInf f (Finset.univ : Finset (Fin 8192)))
      (funext fun k => (congrArg y (reduces_rows_lift hr i k)).trans (hy k))
  rw [val_main_v21_apply, val_main_v20_apply, val_main_cst_2_apply, h19, Ideal.maximumf_def]
  unfold rowMax
  exact max_eq_right ((Finset.le_fold_max _).2 (Or.inl le_rfl))

/-- The exponential of the entry minus its row's maximum. -/
theorem expo_apply (i j : Fin 8192) :
    val_main_v25 (F := Ideal) x0 x1 x2 x3 (ix2 i j)
      = Ideal.exp (negDist (val_main_v4 (F := Ideal) x0 x1 x2 x3) i j - rowMax (negDist (val_main_v4 (F := Ideal) x0 x1 x2 x3) i)) := by
  rw [val_main_v25_apply, val_main_v24_apply, val_main_v23_apply, val_main_v22_apply, negdist_apply,
    show idx_main_v22 (idx_main_v23 (ix2 i j)) = ix1 i from by idx1, rowmax_apply]
  rfl

/-- The sum of the exponentials over row i. -/
theorem rowsum_apply (i : Fin 8192) :
    val_main_v26 (F := Ideal) x0 x1 x2 x3 (ix1 i)
      = ∑ j : Fin 8192, Ideal.exp (negDist (val_main_v4 (F := Ideal) x0 x1 x2 x3) i j
          - rowMax (negDist (val_main_v4 (F := Ideal) x0 x1 x2 x3) i)) := by
  rw [val_main_v26_apply, val_main_cst_3_apply, Ideal.ofBits_def, Ideal.ofBits_zero_f32, zero_add]
  refine Finset.sum_congr rfl fun k _ => ?_
  rw [show idx_main_v26 (ix1 i) k = ix2 i k from by idx2, expo_apply]

/-- The last stage at an entry: the row softmax plus ε. -/
theorem result_apply (i j : Fin 8192) :
    val_main_v31 (F := Ideal) x0 x1 x2 x3 (ix2 i j) = out (val_main_v4 (F := Ideal) x0 x1 x2 x3) (ix2 i j) := by
  rw [out_apply]
  unfold softrow
  rw [val_main_v31_apply, val_main_v29_apply, val_main_v28_apply, val_main_v27_apply, val_main_v30_apply, val_main_cst_4_apply,
    expo_apply, show idx_main_v27 (idx_main_v28 (ix2 i j)) = ix1 i from by idx1, rowsum_apply]
  rfl

/-- The last stage is the specification's result from the embedding. -/
theorem tail_eq : val_main_v31 (F := Ideal) x0 x1 x2 x3 = out (val_main_v4 (F := Ideal) x0 x1 x2 x3) := by
  funext p
  obtain ⟨i, j, rfl⟩ : ∃ (i : Fin 8192) (j : Fin 8192), p = ix2 i j := ⟨p 0, p 1, eq_ix2 p⟩
  exact result_apply x0 x1 x2 x3 i j

end Cert.RefValue

end
-- ==== Proof.RefValue.lean ====
/-
  What the reference computes: the specification's function of its four arguments.

  The reference's result term is its last stage; the last stage is the specification's row softmax plus ε of the
  embedding (the fifth stage), and the embedding is A · (max (A · (X · W1), 0) · W2).  Every weakly fair execution of
  the reference therefore ends with its result array holding that function of the argument arrays, which are unchanged.
-/
import proofs.«111755_j39453569581320_2_alg».proof.Proof.RefStages
import proofs.«111755_j39453569581320_2_alg».proof.Proof.RefStages2

noncomputable section

namespace Cert.RefValue

open Cert.ReferenceIdeal Cert.ReferenceIdeal.Gen Cert.ReferenceIdeal.Read Idealize.ShloMosaic Idealize.ShloMosaic.TcCoe Idealize.SL.Sem
open Idealize.ShloMosaic.StableHlo

/-- The reference's result term is the specification's function of the four argument arrays. -/
theorem result_eq (m : (ℓ : Loc nD τ sig) → Buf (Elt Ideal) ℓ) (c : Dev nD) :
    Cert.ReferenceIdeal.Value.res_main_v31 (F := Ideal) m c
      = Cert.Spec.G (m ((c.tc : Thread nD τ).loc main_arg0)) (m ((c.tc : Thread nD τ).loc main_arg1))
          (m ((c.tc : Thread nD τ).loc main_arg2)) (m ((c.tc : Thread nD τ).loc main_arg3)) := by
  rw [val_main_v31_eq, tail_eq, emb_eq]
  rfl

/-- Every weakly fair execution of the reference ends with its result at the specification's function of the arguments,
    and the arguments unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31)
          = Cert.Spec.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_eq m c), (h c).2⟩)
    (Cert.ReferenceIdeal.Value.run (F := Ideal) m ρ)

end Cert.RefValue

end
-- ==== Proof.lean ====
/-
  The certificate: the blocked two-layer graph convolution, pairwise distances and row softmax computed by three
  kernel regions equal the plain formulas of the reference at the extended reals.
  Both programs compute  out = softmax_rows(−max(|E_i|² + |E_j|² − 2⟨E_i, E_j⟩, 0)) + ε  with  E = A·(max(A·(X·W1), 0)·W2).
  The kernel's frame (at the word level and idealized) is the run of its three regions and three host stretches; the
  first two regions accumulate their product over four contraction steps in a carried accumulator, and the sum of the
  four partial sums is the whole sum because addition of extended reals is associative and commutative — no finiteness
  of the inputs is used. The reference's frame and value are read off its straight-line run.
-/
import proofs.«111755_j39453569581320_2_alg».proof.Defs
import proofs.«111755_j39453569581320_2_alg».proof.Proof.Gen.Kernel
import proofs.«111755_j39453569581320_2_alg».proof.Proof.Gen.KernelIdeal
import proofs.«111755_j39453569581320_2_alg».proof.Proof.Gen.ReferenceIdeal
import proofs.«111755_j39453569581320_2_alg».proof.Proof.Gen.Pre_finite_inputs
import proofs.«111755_j39453569581320_2_alg».proof.Proof.Gen.ReferenceIdeal.Run
import proofs.«111755_j39453569581320_2_alg».proof.Proof.Gen.ReferenceIdeal.Read
import proofs.«111755_j39453569581320_2_alg».proof.Proof.KFrMain
import proofs.«111755_j39453569581320_2_alg».proof.Proof.KernelValue
import proofs.«111755_j39453569581320_2_alg».proof.Proof.RefValue

noncomputable section

namespace Cert.Proof

open Idealize.ShloMosaic Idealize.SL.Sem

theorem frame_k : Cert.frame_Kernel (hKernel := Cert.Kernel.Gen.facts) (hPre_finite_inputs := Cert.Pre_finite_inputs.Gen.facts) := fun m ρ _ => Cert.Kernel.Fr.frame (F := Bits) m ρ
theorem frame_ki : Cert.frame_KernelIdeal (hKernelIdeal := Cert.KernelIdeal.Gen.facts) (hPre_finite_inputs := Cert.Pre_finite_inputs.Gen.facts) := fun m ρ _ => Cert.KernelIdeal.Fr.frame (F := Ideal) m ρ
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Both programs end with the specification's function of arguments that agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.G (m ((c.tc : Thread _ _).loc Cert.KernelIdeal.main_arg0)) (m ((c.tc : Thread _ _).loc Cert.KernelIdeal.main_arg1)) (m ((c.tc : Thread _ _).loc Cert.KernelIdeal.main_arg2)) (m ((c.tc : Thread _ _).loc Cert.KernelIdeal.main_arg3)),
    Cert.KernelIdeal.Val.run_G m ρ, ?_⟩
  refine (θ_run Cert.ReferenceIdeal.defs _ _).mono (fun _ h c => ⟨(h c).1.trans ?_, (h c).2⟩) (Cert.RefValue.run_G m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
